-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v43)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v43) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v84) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg8 : FVec F S128x128 .f32) (main_arg9 : FVec F S128 .f32) (main_arg10 : FVec F S128x128 .f32) (main_v33 : IVec S_ 1) : IVec S_ 1 :=
  let main_v34 : FVec F S128x128 .f32 := Host.absf main_arg8
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x128 .f32 := Host.absf main_arg10
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  main_v48

def fn_part1 {F : FTy → Type} [FloatOps F] (main_arg5 : FVec F S128x128 .f32) (main_arg6 : FVec F S128 .f32) (main_arg7 : FVec F S128x128 .f32) (main_arg8 : FVec F S128x128 .f32) (main_arg9 : FVec F S128 .f32) (main_arg10 : FVec F S128x128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg8 main_arg9 main_arg10 main_v33

def fn {F : FTy → Type} [FloatOps F] (main_arg0 : FVec F S100000x128 .f32) (main_arg1 : IVec S2x1600000 32) (main_arg2 : FVec F S128x128 .f32) (main_arg3 : FVec F S128 .f32) (main_arg4 : FVec F S128x128 .f32) (main_arg5 : FVec F S128x128 .f32) (main_arg6 : FVec F S128 .f32) (main_arg7 : FVec F S128x128 .f32) (main_arg8 : FVec F S128x128 .f32) (main_arg9 : FVec F S128 .f32) (main_arg10 : FVec F S128x128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_arg10 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S100000x1 : Shape := ⟨2, ![100000, 1]⟩
abbrev S1600000x128 : Shape := ⟨2, ![1600000, 128]⟩
abbrev S1x128 : Shape := ⟨2, ![1, 128]⟩
abbrev S10000x128 : Shape := ⟨2, ![10000, 128]⟩
abbrev S10000x1 : Shape := ⟨2, ![10000, 1]⟩

abbrev nBuf : Space → Nat
  | .hbm => 66
  | .vmem => 33
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128x128, .f32⟩
  | .hbm, ⟨9, _⟩ => ⟨S128, .f32⟩
  | .hbm, ⟨10, _⟩ => ⟨S128x128, .f32⟩
  | .hbm, ⟨11, _⟩ => ⟨S1x1600000, .i32⟩
  | .hbm, ⟨12, _⟩ => ⟨S1600000, .i32⟩
  | .hbm, ⟨13, _⟩ => ⟨S1x1600000, .i32⟩
  | .hbm, ⟨14, _⟩ => ⟨S1600000, .i32⟩
  | .hbm, ⟨15, _⟩ => ⟨S_, .f32⟩
  | .hbm, ⟨16, _⟩ => ⟨S1600000x1, .f32⟩
  | .hbm, ⟨17, _⟩ => ⟨S_, .f32⟩
  | .hbm, ⟨18, _⟩ => ⟨S100000x1, .f32⟩
  | .hbm, ⟨19, _⟩ => ⟨S1600000x1, .i32⟩
  | .hbm, ⟨20, _⟩ => ⟨S100000x1, .f32⟩
  | .hbm, ⟨21, _⟩ => ⟨S_, .i32⟩
  | .hbm, ⟨22, _⟩ => ⟨S1600000, .i32⟩
  | .hbm, ⟨23, _⟩ => ⟨S1600000, .i1⟩
  | .hbm, ⟨24, _⟩ => ⟨S_, .i32⟩
  | .hbm, ⟨25, _⟩ => ⟨S1600000, .i32⟩
  | .hbm, ⟨26, _⟩ => ⟨S1600000, .i32⟩
  | .hbm, ⟨27, _⟩ => ⟨S1600000, .i32⟩
  | .hbm, ⟨28, _⟩ => ⟨S1600000x1, .i32⟩
  | .hbm, ⟨29, _⟩ => ⟨S1600000x128, .f32⟩
  | .hbm, ⟨30, _⟩ => ⟨S_, .f32⟩
  | .hbm, ⟨31, _⟩ => ⟨S100000x128, .f32⟩
  | .hbm, ⟨32, _⟩ => ⟨S1600000x1, .i32⟩
  | .hbm, ⟨33, _⟩ => ⟨S100000x128, .f32⟩
  | .hbm, ⟨34, _⟩ => ⟨S1x128, .f32⟩
  | .hbm, ⟨35, _⟩ => ⟨S100000x128, .f32⟩
  | .hbm, ⟨36, _⟩ => ⟨S_, .i32⟩
  | .hbm, ⟨37, _⟩ => ⟨S1600000, .i32⟩
  | .hbm, ⟨38, _⟩ => ⟨S1600000, .i1⟩
  | .hbm, ⟨39, _⟩ => ⟨S_, .i32⟩
  | .hbm, ⟨40, _⟩ => ⟨S1600000, .i32⟩
  | .hbm, ⟨41, _⟩ => ⟨S1600000, .i32⟩
  | .hbm, ⟨42, _⟩ => ⟨S1600000, .i32⟩
  | .hbm, ⟨43, _⟩ => ⟨S1600000x1, .i32⟩
  | .hbm, ⟨44, _⟩ => ⟨S1600000x128, .f32⟩
  | .hbm, ⟨45, _⟩ => ⟨S_, .f32⟩
  | .hbm, ⟨46, _⟩ => ⟨S100000x128, .f32⟩
  | .hbm, ⟨47, _⟩ => ⟨S1600000x1, .i32⟩
  | .hbm, ⟨48, _⟩ => ⟨S100000x128, .f32⟩
  | .hbm, ⟨49, _⟩ => ⟨S1x128, .f32⟩
  | .hbm, ⟨50, _⟩ => ⟨S100000x128, .f32⟩
  | .hbm, ⟨51, _⟩ => ⟨S_, .i32⟩
  | .hbm, ⟨52, _⟩ => ⟨S1600000, .i32⟩
  | .hbm, ⟨53, _⟩ => ⟨S1600000, .i1⟩
  | .hbm, ⟨54, _⟩ => ⟨S_, .i32⟩
  | .hbm, ⟨55, _⟩ => ⟨S1600000, .i32⟩
  | .hbm, ⟨56, _⟩ => ⟨S1600000, .i32⟩
  | .hbm, ⟨57, _⟩ => ⟨S1600000, .i32⟩
  | .hbm, ⟨58, _⟩ => ⟨S1600000x1, .i32⟩
  | .hbm, ⟨59, _⟩ => ⟨S1600000x128, .f32⟩
  | .hbm, ⟨60, _⟩ => ⟨S_, .f32⟩
  | .hbm, ⟨61, _⟩ => ⟨S100000x128, .f32⟩
  | .hbm, ⟨62, _⟩ => ⟨S1600000x1, .i32⟩
  | .hbm, ⟨63, _⟩ => ⟨S100000x128, .f32⟩
  | .hbm, ⟨64, _⟩ => ⟨S1x128, .f32⟩
  | .hbm, ⟨65, _⟩ => ⟨S100000x128, .f32⟩
  | .local _ .vmem, ⟨0, _⟩ => ⟨S10000x128, .f32⟩
  | .local _ .vmem, ⟨1, _⟩ => ⟨S10000x128, .f32⟩
  | .local _ .vmem, ⟨2, _⟩ => ⟨S10000x1, .f32⟩
  | .local _ .vmem, ⟨3, _⟩ => ⟨S10000x1, .f32⟩
  | .local _ .vmem, ⟨4, _⟩ => ⟨S10000x128, .f32⟩
  | .local _ .vmem, ⟨5, _⟩ => ⟨S10000x128, .f32⟩
  | .local _ .vmem, ⟨6, _⟩ => ⟨S128x128, .f32⟩
  | .local _ .vmem, ⟨7, _⟩ => ⟨S1x128, .f32⟩
  | .local _ .vmem, ⟨8, _⟩ => ⟨S128x128, .f32⟩
  | .local _ .vmem, ⟨9, _⟩ => ⟨S10000x128, .f32⟩
  | .local _ .vmem, ⟨10, _⟩ => ⟨S10000x128, .f32⟩
  | .local _ .vmem, ⟨11, _⟩ => ⟨S10000x128, .f32⟩
  | .local _ .vmem, ⟨12, _⟩ => ⟨S10000x128, .f32⟩
  | .local _ .vmem, ⟨13, _⟩ => ⟨S10000x1, .f32⟩
  | .local _ .vmem, ⟨14, _⟩ => ⟨S10000x1, .f32⟩
  | .local _ .vmem, ⟨15, _⟩ => ⟨S10000x128, .f32⟩
  | .local _ .vmem, ⟨16, _⟩ => ⟨S10000x128, .f32⟩
  | .local _ .vmem, ⟨17, _⟩ => ⟨S128x128, .f32⟩
  | .local _ .vmem, ⟨18, _⟩ => ⟨S1x128, .f32⟩
  | .local _ .vmem, ⟨19, _⟩ => ⟨S128x128, .f32⟩
  | .local _ .vmem, ⟨20, _⟩ => ⟨S10000x128, .f32⟩
  | .local _ .vmem, ⟨21, _⟩ => ⟨S10000x128, .f32⟩
  | .local _ .vmem, ⟨22, _⟩ => ⟨S10000x128, .f32⟩
  | .local _ .vmem, ⟨23, _⟩ => ⟨S10000x128, .f32⟩
  | .local _ .vmem, ⟨24, _⟩ => ⟨S10000x1, .f32⟩
  | .local _ .vmem, ⟨25, _⟩ => ⟨S10000x1, .f32⟩
  | .local _ .vmem, ⟨26, _⟩ => ⟨S10000x128, .f32⟩
  | .local _ .vmem, ⟨27, _⟩ => ⟨S10000x128, .f32⟩
  | .local _ .vmem, ⟨28, _⟩ => ⟨S128x128, .f32⟩
  | .local _ .vmem, ⟨29, _⟩ => ⟨S1x128, .f32⟩
  | .local _ .vmem, ⟨30, _⟩ => ⟨S128x128, .f32⟩
  | .local _ .vmem, ⟨31, _⟩ => ⟨S10000x128, .f32⟩
  | .local _ .vmem, ⟨32, _⟩ => ⟨S10000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_c : Ref sig .tc := ⟨.hbm, 21, rfl⟩
abbrev main_v8 : Ref sig .tc := ⟨.hbm, 22, rfl⟩
abbrev main_v9 : Ref sig .tc := ⟨.hbm, 23, rfl⟩
abbrev main_c_1 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_cst_2 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_c_3 : Ref sig .tc := ⟨.hbm, 36, rfl⟩
abbrev main_v20 : Ref sig .tc := ⟨.hbm, 37, rfl⟩
abbrev main_v21 : Ref sig .tc := ⟨.hbm, 38, rfl⟩
abbrev main_c_4 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_cst_5 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_c_6 : Ref sig .tc := ⟨.hbm, 51, rfl⟩
abbrev main_v32 : Ref sig .tc := ⟨.hbm, 52, rfl⟩
abbrev main_v33 : Ref sig .tc := ⟨.hbm, 53, rfl⟩
abbrev main_c_7 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_cst_8 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg1_1 : Ref sig .tc := ⟨.vmem, 25, rfl⟩
abbrev cc2_stg2_0 : Ref sig .tc := ⟨.vmem, 26, rfl⟩
abbrev cc2_stg2_1 : Ref sig .tc := ⟨.vmem, 27, rfl⟩
abbrev cc2_stg3_0 : Ref sig .tc := ⟨.vmem, 28, rfl⟩
abbrev cc2_stg4_0 : Ref sig .tc := ⟨.vmem, 29, rfl⟩
abbrev cc2_stg5_0 : Ref sig .tc := ⟨.vmem, 30, rfl⟩
abbrev cc2_stg6_0 : Ref sig .tc := ⟨.vmem, 31, rfl⟩
abbrev cc2_stg6_1 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21
abbrev cc2_sem0_0 : DmaSem sig := 22
abbrev cc2_sem0_1 : DmaSem sig := 23
abbrev cc2_sem1_0 : DmaSem sig := 24
abbrev cc2_sem1_1 : DmaSem sig := 25
abbrev cc2_sem2_0 : DmaSem sig := 26
abbrev cc2_sem2_1 : DmaSem sig := 27
abbrev cc2_sem3_0 : DmaSem sig := 28
abbrev cc2_sem4_0 : DmaSem sig := 29
abbrev cc2_sem5_0 : DmaSem sig := 30
abbrev cc2_sem6_0 : DmaSem sig := 31
abbrev cc2_sem6_1 : DmaSem sig := 32

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S10000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S10000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S10000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S10000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S10000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S10000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S10000x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000x1 : S_.BroadcastsInDim S1600000x1 (![] : Fin 0 → Fin S1600000x1.rank)
  bcast_S_S100000x1 : S_.BroadcastsInDim S100000x1 (![] : Fin 0 → Fin S100000x1.rank)
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S_S100000x128 : S_.BroadcastsInDim S100000x128 (![] : Fin 0 → Fin S100000x128.rank)
  shapeCasts_S128_S1x128 : S128.ShapeCasts S1x128
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  broadcasts_S10000x1_S10000x128 : S10000x1.Broadcasts S10000x128
  inb_S128x128_S128x128_0_0 : ∀ a, (![0, 0] : Fin 2 → Nat) a + S128x128.size a ≤ S128x128.size a
  h_S128x128 : 0 < S128x128.numel
  transposes_S128x128_p1_0_S128x128 : S128x128.Transposes [1, 0] S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  scatter_S100000x1_S1600000x1_S1600000x1_1_0_0_1_wf : ScatterDims.WF S100000x1 S1600000x1 S1600000x1 [1] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S10000x128_S128x128_S10000x128_1_0_0_1_n_n_wf : DotDims.WF S10000x128 S128x128 S10000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x1.size a ≤ S100000x1.size a
  hwx0_1 : ∀ i : grid0.Coords, EltTy.bits .f32 = 32 ∨ (Rect.block (s := S100000x1) S10000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S100000x128.size a
  hwx0_2 : ∀ i : grid0.Coords, EltTy.bits .f32 = 32 ∨ (Rect.block (s := S100000x128) S10000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S10000x128.size a ≤ S100000x128.size a
  hwx0_6 : ∀ i : grid0.Coords, EltTy.bits .f32 = 32 ∨ (Rect.block (s := S100000x128) S10000x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S100000x128.size a
  hwx1_0 : ∀ i : grid1.Coords, EltTy.bits .f32 = 32 ∨ (Rect.block (s := S100000x128) S10000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x1.size a ≤ S100000x1.size a
  hwx1_1 : ∀ i : grid1.Coords, EltTy.bits .f32 = 32 ∨ (Rect.block (s := S100000x1) S10000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x128.size a ≤ S100000x128.size a
  hwx1_2 : ∀ i : grid1.Coords, EltTy.bits .f32 = 32 ∨ (Rect.block (s := S100000x128) S10000x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S10000x128.size a ≤ S100000x128.size a
  hwx1_6 : ∀ i : grid1.Coords, EltTy.bits .f32 = 32 ∨ (Rect.block (s := S100000x128) S10000x128.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x128.size a ≤ S100000x128.size a
  hwx2_0 : ∀ i : grid2.Coords, EltTy.bits .f32 = 32 ∨ (Rect.block (s := S100000x128) S10000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S10000x1.size a ≤ S100000x1.size a
  hwx2_1 : ∀ i : grid2.Coords, EltTy.bits .f32 = 32 ∨ (Rect.block (s := S100000x1) S10000x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x128.size a ≤ S100000x128.size a
  hwx2_2 : ∀ i : grid2.Coords, EltTy.bits .f32 = 32 ∨ (Rect.block (s := S100000x128) S10000x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128x128.size a ≤ S128x128.size a
  hwx2_5 : ∀ i : grid2.Coords, EltTy.bits .f32 = 32 ∨ (Rect.block (s := S128x128) S128x128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S10000x128.size a ≤ S100000x128.size a
  hwx2_6 : ∀ i : grid2.Coords, EltTy.bits .f32 = 32 ∨ (Rect.block (s := S100000x128) S10000x128.size (cc2_transform_6 i) (hinb2_6 i)).WholeWords (EltTy.packing .f32)

variable [Facts₀]

def scatter_S100000x1_S1600000x1_S1600000x1_1_0_0_1 : ScatterDims S100000x1 S1600000x1 S1600000x1 where
  updateWindowDims := [1]
  insertedWindowDims := [0]
  scatterDimsToOperandDims := [0]
  indexVectorDim := 1
  wf := scatter_S100000x1_S1600000x1_S1600000x1_1_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf

abbrev win0_0 : Pipeline.Window sig grid0 :=
  Pipeline.Window.ofSpec (Memref.whole main_v17) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S10000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S10000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v18) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v19) S10000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v29) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v7) S10000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v19) S10000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v30) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg7) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v31) S10000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v41) S10000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v7) S10000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v31) S10000x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg8) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v42) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg10) S128x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v43) S10000x128.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000x1 : Shape := ⟨2, ![100000, 1]⟩
abbrev S1x128 : Shape := ⟨2, ![1, 128]⟩

abbrev nBuf : Space → Nat
  | .hbm => 120
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128x128, .f32⟩
  | .hbm, ⟨9, _⟩ => ⟨S128, .f32⟩
  | .hbm, ⟨10, _⟩ => ⟨S128x128, .f32⟩
  | .hbm, ⟨11, _⟩ => ⟨S1x1600000, .i32⟩
  | .hbm, ⟨12, _⟩ => ⟨S1600000, .i32⟩
  | .hbm, ⟨13, _⟩ => ⟨S1x1600000, .i32⟩
  | .hbm, ⟨14, _⟩ => ⟨S1600000, .i32⟩
  | .hbm, ⟨15, _⟩ => ⟨S_, .i32⟩
  | .hbm, ⟨16, _⟩ => ⟨S1600000, .i32⟩
  | .hbm, ⟨17, _⟩ => ⟨S1600000, .i1⟩
  | .hbm, ⟨18, _⟩ => ⟨S_, .i32⟩
  | .hbm, ⟨19, _⟩ => ⟨S1600000, .i32⟩
  | .hbm, ⟨20, _⟩ => ⟨S1600000, .i32⟩
  | .hbm, ⟨21, _⟩ => ⟨S1600000, .i32⟩
  | .hbm, ⟨22, _⟩ => ⟨S1600000x1, .i32⟩
  | .hbm, ⟨23, _⟩ => ⟨S1600000x128, .f32⟩
  | .hbm, ⟨24, _⟩ => ⟨S_, .f32⟩
  | .hbm, ⟨25, _⟩ => ⟨S100000x128, .f32⟩
  | .hbm, ⟨26, _⟩ => ⟨S1600000x1, .i32⟩
  | .hbm, ⟨27, _⟩ => ⟨S100000x128, .f32⟩
  | .hbm, ⟨28, _⟩ => ⟨S_, .f32⟩
  | .hbm, ⟨29, _⟩ => ⟨S1600000x1, .f32⟩
  | .hbm, ⟨30, _⟩ => ⟨S_, .f32⟩
  | .hbm, ⟨31, _⟩ => ⟨S100000x1, .f32⟩
  | .hbm, ⟨32, _⟩ => ⟨S1600000x1, .i32⟩
  | .hbm, ⟨33, _⟩ => ⟨S100000x1, .f32⟩
  | .hbm, ⟨34, _⟩ => ⟨S_, .f32⟩
  | .hbm, ⟨35, _⟩ => ⟨S100000x1, .f32⟩
  | .hbm, ⟨36, _⟩ => ⟨S100000x1, .f32⟩
  | .hbm, ⟨37, _⟩ => ⟨S100000x128, .f32⟩
  | .hbm, ⟨38, _⟩ => ⟨S100000x128, .f32⟩
  | .hbm, ⟨39, _⟩ => ⟨S128x128, .f32⟩
  | .hbm, ⟨40, _⟩ => ⟨S100000x128, .f32⟩
  | .hbm, ⟨41, _⟩ => ⟨S1x128, .f32⟩
  | .hbm, ⟨42, _⟩ => ⟨S100000x128, .f32⟩
  | .hbm, ⟨43, _⟩ => ⟨S100000x128, .f32⟩
  | .hbm, ⟨44, _⟩ => ⟨S128x128, .f32⟩
  | .hbm, ⟨45, _⟩ => ⟨S100000x128, .f32⟩
  | .hbm, ⟨46, _⟩ => ⟨S100000x128, .f32⟩
  | .hbm, ⟨47, _⟩ => ⟨S_, .f32⟩
  | .hbm, ⟨48, _⟩ => ⟨S100000x128, .f32⟩
  | .hbm, ⟨49, _⟩ => ⟨S100000x128, .f32⟩
  | .hbm, ⟨50, _⟩ => ⟨S_, .i32⟩
  | .hbm, ⟨51, _⟩ => ⟨S1600000, .i32⟩
  | .hbm, ⟨52, _⟩ => ⟨S1600000, .i1⟩
  | .hbm, ⟨53, _⟩ => ⟨S_, .i32⟩
  | .hbm, ⟨54, _⟩ => ⟨S1600000, .i32⟩
  | .hbm, ⟨55, _⟩ => ⟨S1600000, .i32⟩
  | .hbm, ⟨56, _⟩ => ⟨S1600000, .i32⟩
  | .hbm, ⟨57, _⟩ => ⟨S1600000x1, .i32⟩
  | .hbm, ⟨58, _⟩ => ⟨S1600000x128, .f32⟩
  | .hbm, ⟨59, _⟩ => ⟨S_, .f32⟩
  | .hbm, ⟨60, _⟩ => ⟨S100000x128, .f32⟩
  | .hbm, ⟨61, _⟩ => ⟨S1600000x1, .i32⟩
  | .hbm, ⟨62, _⟩ => ⟨S100000x128, .f32⟩
  | .hbm, ⟨63, _⟩ => ⟨S_, .f32⟩
  | .hbm, ⟨64, _⟩ => ⟨S1600000x1, .f32⟩
  | .hbm, ⟨65, _⟩ => ⟨S_, .f32⟩
  | .hbm, ⟨66, _⟩ => ⟨S100000x1, .f32⟩
  | .hbm, ⟨67, _⟩ => ⟨S1600000x1, .i32⟩
  | .hbm, ⟨68, _⟩ => ⟨S100000x1, .f32⟩
  | .hbm, ⟨69, _⟩ => ⟨S_, .f32⟩
  | .hbm, ⟨70, _⟩ => ⟨S100000x1, .f32⟩
  | .hbm, ⟨71, _⟩ => ⟨S100000x1, .f32⟩
  | .hbm, ⟨72, _⟩ => ⟨S100000x128, .f32⟩
  | .hbm, ⟨73, _⟩ => ⟨S100000x128, .f32⟩
  | .hbm, ⟨74, _⟩ => ⟨S128x128, .f32⟩
  | .hbm, ⟨75, _⟩ => ⟨S100000x128, .f32⟩
  | .hbm, ⟨76, _⟩ => ⟨S1x128, .f32⟩
  | .hbm, ⟨77, _⟩ => ⟨S100000x128, .f32⟩
  | .hbm, ⟨78, _⟩ => ⟨S100000x128, .f32⟩
  | .hbm, ⟨79, _⟩ => ⟨S128x128, .f32⟩
  | .hbm, ⟨80, _⟩ => ⟨S100000x128, .f32⟩
  | .hbm, ⟨81, _⟩ => ⟨S100000x128, .f32⟩
  | .hbm, ⟨82, _⟩ => ⟨S_, .f32⟩
  | .hbm, ⟨83, _⟩ => ⟨S100000x128, .f32⟩
  | .hbm, ⟨84, _⟩ => ⟨S100000x128, .f32⟩
  | .hbm, ⟨85, _⟩ => ⟨S_, .i32⟩
  | .hbm, ⟨86, _⟩ => ⟨S1600000, .i32⟩
  | .hbm, ⟨87, _⟩ => ⟨S1600000, .i1⟩
  | .hbm, ⟨88, _⟩ => ⟨S_, .i32⟩
  | .hbm, ⟨89, _⟩ => ⟨S1600000, .i32⟩
  | .hbm, ⟨90, _⟩ => ⟨S1600000, .i32⟩
  | .hbm, ⟨91, _⟩ => ⟨S1600000, .i32⟩
  | .hbm, ⟨92, _⟩ => ⟨S1600000x1, .i32⟩
  | .hbm, ⟨93, _⟩ => ⟨S1600000x128, .f32⟩
  | .hbm, ⟨94, _⟩ => ⟨S_, .f32⟩
  | .hbm, ⟨95, _⟩ => ⟨S100000x128, .f32⟩
  | .hbm, ⟨96, _⟩ => ⟨S1600000x1, .i32⟩
  | .hbm, ⟨97, _⟩ => ⟨S100000x128, .f32⟩
  | .hbm, ⟨98, _⟩ => ⟨S_, .f32⟩
  | .hbm, ⟨99, _⟩ => ⟨S1600000x1, .f32⟩
  | .hbm, ⟨100, _⟩ => ⟨S_, .f32⟩
  | .hbm, ⟨101, _⟩ => ⟨S100000x1, .f32⟩
  | .hbm, ⟨102, _⟩ => ⟨S1600000x1, .i32⟩
  | .hbm, ⟨103, _⟩ => ⟨S100000x1, .f32⟩
  | .hbm, ⟨104, _⟩ => ⟨S_, .f32⟩
  | .hbm, ⟨105, _⟩ => ⟨S100000x1, .f32⟩
  | .hbm, ⟨106, _⟩ => ⟨S100000x1, .f32⟩
  | .hbm, ⟨107, _⟩ => ⟨S100000x128, .f32⟩
  | .hbm, ⟨108, _⟩ => ⟨S100000x128, .f32⟩
  | .hbm, ⟨109, _⟩ => ⟨S128x128, .f32⟩
  | .hbm, ⟨110, _⟩ => ⟨S100000x128, .f32⟩
  | .hbm, ⟨111, _⟩ => ⟨S1x128, .f32⟩
  | .hbm, ⟨112, _⟩ => ⟨S100000x128, .f32⟩
  | .hbm, ⟨113, _⟩ => ⟨S100000x128, .f32⟩
  | .hbm, ⟨114, _⟩ => ⟨S128x128, .f32⟩
  | .hbm, ⟨115, _⟩ => ⟨S100000x128, .f32⟩
  | .hbm, ⟨116, _⟩ => ⟨S100000x128, .f32⟩
  | .hbm, ⟨117, _⟩ => ⟨S_, .f32⟩
  | .hbm, ⟨118, _⟩ => ⟨S100000x128, .f32⟩
  | .hbm, ⟨119, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_1 : Ref sig .tc := ⟨.hbm, 28, rfl⟩
abbrev main_v14 : Ref sig .tc := ⟨.hbm, 29, rfl⟩
abbrev main_cst_2 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_3 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_call0_cst : Ref sig .tc := ⟨.hbm, 47, rfl⟩
abbrev main_call0_v0 : Ref sig .tc := ⟨.hbm, 48, rfl⟩
abbrev main_v30 : Ref sig .tc := ⟨.hbm, 49, rfl⟩
abbrev main_c_4 : Ref sig .tc := ⟨.hbm, 50, rfl⟩
abbrev main_v31 : Ref sig .tc := ⟨.hbm, 51, rfl⟩
abbrev main_v32 : Ref sig .tc := ⟨.hbm, 52, rfl⟩
abbrev main_c_5 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_cst_6 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_7 : Ref sig .tc := ⟨.hbm, 63, rfl⟩
abbrev main_v41 : Ref sig .tc := ⟨.hbm, 64, rfl⟩
abbrev main_cst_8 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_cst_9 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_call1_cst : Ref sig .tc := ⟨.hbm, 82, rfl⟩
abbrev main_call1_v0 : Ref sig .tc := ⟨.hbm, 83, rfl⟩
abbrev main_v57 : Ref sig .tc := ⟨.hbm, 84, rfl⟩
abbrev main_c_10 : Ref sig .tc := ⟨.hbm, 85, rfl⟩
abbrev main_v58 : Ref sig .tc := ⟨.hbm, 86, rfl⟩
abbrev main_v59 : Ref sig .tc := ⟨.hbm, 87, rfl⟩
abbrev main_c_11 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_cst_12 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_cst_13 : Ref sig .tc := ⟨.hbm, 98, rfl⟩
abbrev main_v68 : Ref sig .tc := ⟨.hbm, 99, rfl⟩
abbrev main_cst_14 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_cst_15 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_call2_cst : Ref sig .tc := ⟨.hbm, 117, rfl⟩
abbrev main_call2_v0 : Ref sig .tc := ⟨.hbm, 118, rfl⟩
abbrev main_v84 : Ref sig .tc := ⟨.hbm, 119, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S1600000x1 : S_.BroadcastsInDim S1600000x1 (![] : Fin 0 → Fin S1600000x1.rank)
  bcast_S_S100000x1 : S_.BroadcastsInDim S100000x1 (![] : Fin 0 → Fin S100000x1.rank)
  bcast_S100000x1_S100000x128_0_1 : S100000x1.BroadcastsInDim S100000x128 (![0, 1] : Fin 2 → Fin S100000x128.rank)
  transposes_S128x128_S128x128_1_0 : S128x128.Transposes [1, 0] S128x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000x1_S1600000x1_S1600000x1_1_0_0_1_wf : ScatterDims.WF S100000x1 S1600000x1 S1600000x1 [1] [0] [0] 1
  dot_S100000x128_S128x128_S100000x128_1_0_0_1_n_n_wf : DotDims.WF S100000x128 S128x128 S100000x128 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000x1_S1600000x1_S1600000x1_1_0_0_1 : ScatterDims S100000x1 S1600000x1 S1600000x1 where
  updateWindowDims := [1]
  insertedWindowDims := [0]
  scatterDimsToOperandDims := [0]
  indexVectorDim := 1
  wf := scatter_S100000x1_S1600000x1_S1600000x1_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.KernelRun.lean ====
/-
  The kernel program's run with its result named.

  The program is three launches of one row-tiled layer among stretches of host operations. Every weakly fair execution
  terminates without a fault, and in the final state the result buffer holds what the last boundary of the run's fold
  of buffer contents (`Gen.W6`: the third launch's output array as its write-backs leave it) holds there, the
  argument arrays being as launched. This is the frame's own run, read at the result buffer as well as at the
  arguments; what that array is, as a function of the arguments, is the business of the value modules.
-/
import proofs.«153698_j72773925863659_1_alg».proof.Proof.Gen.KernelIdeal.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting; the result buffer ends at the last
    boundary's contents of it, and every argument array as launched. -/
theorem run_named : θ_run defs (onTc (τ := τ) (main (F := F))) ⟨m, fun _ => 0, ρ⟩ (fun r => ∀ c : Dev nD,
      r.2.mem ((c.tc : Thread nD τ).loc main_v43) = W6 m ρ c (Proc.devRef .tc main_v43)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v43 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c),
       (h c _ (mem_uc main_arg10 (by decide))).trans (W6_main_arg10 m ρ c)⟩)

end Cert.KernelIdeal.Hand

end
-- ==== Proof.LibRowLayers.lean ====
/-
  Rows of two-dimensional arrays over the extended reals, and the layers of a row-wise network.

  A point-wise multilayer perceptron treats every row of its input matrix alone: a dense layer sends the row
  `h` to `j ↦ (∑ k, h k · w[k, j]) + b j`, a rectifier takes the maximum with a threshold entry by entry, a
  concatenation along the columns sets two rows side by side. This file names those three row functions
  (`dense`, `relu`, `join`) and reads, ROW BY ROW, the array operations that compute them: a matrix product
  into a zero accumulator (the device's) or with no accumulator (the host's) whose dimension numbers say
  "rows times columns" (`RowsTimesCols`), the addition of a bias row broadcast down the rows, the maximum
  with a splat constant, a slice of columns, and a concatenation of columns. Every statement is for an
  arbitrary number of rows, so one calculus serves a block of rows and the whole array alike.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

noncomputable section

namespace Cert.RowLayers

open Idealize.ShloMosaic Idealize.ShloMosaic.ValueIdx

/-! ## Rows, and the three row functions -/

section Rows
variable {α : Type}

/-- Row `p` of an `[a, b]` array: the function `k ↦ v[p, k]`. -/
def rowOf {a b : ℕ} (v : (⟨2, ![a, b]⟩ : Shape).Idx → α) (p : Fin a) : Fin b → α := fun k => v (ix2 p k)

theorem rowOf_apply {a b : ℕ} (v : (⟨2, ![a, b]⟩ : Shape).Idx → α) (p : Fin a) (k : Fin b) : rowOf v p k = v (ix2 p k) := rfl

/-- An array read at an index is its row at the first coordinate read at the second. -/
theorem apply_eq_rowOf {a b : ℕ} (v : (⟨2, ![a, b]⟩ : Shape).Idx → α) (i : (⟨2, ![a, b]⟩ : Shape).Idx) : v i = rowOf v (i 0) (i 1) :=
  congrArg v (eq_ix2 i)

/-- Two rows side by side: the first `A` entries are `f`'s, the next `B` are `g`'s. -/
def join {A B C : ℕ} (hC : C = A + B) (f : Fin A → α) (g : Fin B → α) : Fin C → α :=
  fun k => if h : k.val < A then f ⟨k.val, h⟩ else g ⟨k.val - A, by have := k.isLt; omega⟩

end Rows

/-- A dense layer on a row `h`: entry `j` is `(∑ k, h k · w[k, j]) + b j`. -/
def dense {K J : ℕ} (h : Fin K → EReal) (w : (⟨2, ![K, J]⟩ : Shape).Idx → EReal) (b : Fin J → EReal) : Fin J → EReal :=
  fun j => (∑ k : Fin K, h k * w (ix2 k j)) + b j

/-- The rectifier with threshold `z`, entry by entry: `max (f j) z`. -/
def relu {J : ℕ} (z : EReal) (f : Fin J → EReal) : Fin J → EReal := fun j => max (f j) z

/-! ## A matrix product whose dimension numbers say "rows times columns" -/

section Contraction
variable {a K b : ℕ} (d : DotDims ⟨2, ![a, K]⟩ ⟨2, ![K, b]⟩ ⟨2, ![a, b]⟩)

/-- The dimension numbers of an `[a, K] × [K, b] → [a, b]` product contract ONE axis, of extent `K`, and read the
    left operand at (output row, contracted position) and the right one at (contracted position, output column). -/
structure RowsTimesCols : Prop where
  rank : d.contr.rank = 1
  size : d.contr.size ⟨0, by omega⟩ = K
  lhs0 : ∀ (j : (⟨2, ![a, b]⟩ : Shape).Idx) (q : d.contr.Idx), (d.lhsIdx j q 0).val = (j 0).val
  lhs1 : ∀ (j : (⟨2, ![a, b]⟩ : Shape).Idx) (q : d.contr.Idx), (d.lhsIdx j q 1).val = (q ⟨0, by omega⟩).val
  rhs0 : ∀ (j : (⟨2, ![a, b]⟩ : Shape).Idx) (q : d.contr.Idx), (d.rhsIdx j q 0).val = (q ⟨0, by omega⟩).val
  rhs1 : ∀ (j : (⟨2, ![a, b]⟩ : Shape).Idx) (q : d.contr.Idx), (d.rhsIdx j q 1).val = (j 1).val

variable {d}

/-- The sum over the contraction's index set, re-indexed by the contracted position `k < K`: entry `(p, q)` of the
    product is `∑ k, lhs[p, k] · rhs[k, q]`. -/
theorem RowsTimesCols.sum_eq (H : RowsTimesCols d) (lhs : (⟨2, ![a, K]⟩ : Shape).Idx → EReal) (rhs : (⟨2, ![K, b]⟩ : Shape).Idx → EReal)
    (p : Fin a) (q : Fin b) :
    (∑ k : d.contr.Idx, lhs (d.lhsIdx (ix2 p q) k) * rhs (d.rhsIdx (ix2 p q) k)) = ∑ k : Fin K, lhs (ix2 p k) * rhs (ix2 k q) := by
  rw [← Equiv.sum_comp (contrEquiv1 d K H.rank H.size).symm]
  refine Finset.sum_congr rfl fun k _ => ?_
  have hk := contrEquiv1_symm_val d K H.rank H.size k
  have el : d.lhsIdx (ix2 p q) ((contrEquiv1 d K H.rank H.size).symm k) = ix2 p k := funext fun ax => Fin.ext (by
    match ax with
    | ⟨0, _⟩ => exact H.lhs0 _ _
    | ⟨1, _⟩ => exact (H.lhs1 _ _).trans hk)
  have er : d.rhsIdx (ix2 p q) ((contrEquiv1 d K H.rank H.size).symm k) = ix2 k q := funext fun ax => Fin.ext (by
    match ax with
    | ⟨0, _⟩ => exact (H.rhs0 _ _).trans hk
    | ⟨1, _⟩ => exact H.rhs1 _ _)
  rw [el, er]

/-- Row `p` of the device's product into a zero accumulator. -/
theorem rowOf_matmul_zero {φ₁ φ₂ : FTy} (H : RowsTimesCols d) (prec : Option ContractPrecision)
    (lhs : FVec Ideal ⟨2, ![a, K]⟩ φ₁) (rhs : FVec Ideal ⟨2, ![K, b]⟩ φ₂) (p : Fin a) :
    rowOf (matmul d prec lhs rhs (constant (F := Ideal) ⟨2, ![a, b]⟩ .f32 0x00000000#32)) p
      = fun j => ∑ k : Fin K, rowOf lhs p k * rhs (ix2 k j) := by
  funext j
  show FloatOps.matmul d prec lhs rhs (constant (F := Ideal) ⟨2, ![a, b]⟩ .f32 0x00000000#32) (ix2 p j) = _
  rw [Ideal.matmul_constant_zero_apply]
  exact H.sum_eq lhs rhs p j

/-- Row `p` of the host's product. -/
theorem rowOf_dotGeneral {φ₁ φ₂ : FTy} (H : RowsTimesCols d) (prec : Option ContractPrecision)
    (lhs : FVec Ideal ⟨2, ![a, K]⟩ φ₁) (rhs : FVec Ideal ⟨2, ![K, b]⟩ φ₂) (p : Fin a) :
    rowOf (Host.dotGeneral (F := Ideal) d prec lhs rhs) p = fun j => ∑ k : Fin K, rowOf lhs p k * rhs (ix2 k j) := by
  funext j
  show FloatOps.dotGeneral d prec .single lhs rhs (ix2 p j) = _
  rw [Ideal.dotGeneral_apply]
  exact H.sum_eq lhs rhs p j

end Contraction

/-! ## The other operations, read on a row -/

section Ops
variable {a b : ℕ} {φ : FTy}

/-- A sum of arrays, on a row. -/
theorem rowOf_addf (x y : FVec Ideal ⟨2, ![a, b]⟩ φ) (p : Fin a) : rowOf (addf x y) p = fun j => rowOf x p j + rowOf y p j := rfl

/-- A change of float format does nothing to an extended real. -/
theorem rowOf_truncf {ψ : FTy} (x : FVec Ideal ⟨2, ![a, b]⟩ φ) (h : ψ.bits < φ.bits) (p : Fin a) :
    rowOf (truncf ψ x h : FVec Ideal ⟨2, ![a, b]⟩ ψ) p = rowOf x p := rfl

/-- The maximum with a splat scalar is the rectifier at that scalar. -/
theorem rowOf_maximumf_splat (x : FVec Ideal ⟨2, ![a, b]⟩ φ) (z : Ideal φ) (p : Fin a) :
    rowOf (maximumf x (broadcast ⟨2, ![a, b]⟩ z)) p = relu z (rowOf x p) := rfl

/-- The maximum with a rank-0 constant broadcast over the array is the rectifier at that constant. -/
theorem rowOf_maximumf_const {s : Shape} (x : FVec Ideal ⟨2, ![a, b]⟩ φ) (w : BitVec φ.bits) (dims : Fin s.rank → Fin 2)
    (h : s.BroadcastsInDim ⟨2, ![a, b]⟩ dims) (p : Fin a) :
    rowOf (maximumf x (broadcastInDim ⟨2, ![a, b]⟩ dims h (constant (F := Ideal) s φ w))) p = relu (Ideal.ofBits φ w) (rowOf x p) := rfl

/-- One row broadcast down `a` rows: every row is that row. -/
theorem rowOf_broadcastTo {α : Type} (v : (⟨2, ![1, b]⟩ : Shape).Idx → α) (h : (⟨2, ![1, b]⟩ : Shape).Broadcasts ⟨2, ![a, b]⟩) (p : Fin a) :
    rowOf (broadcastTo ⟨2, ![a, b]⟩ v h) p = rowOf v 0 :=
  funext fun c => broadcastTo_1b_ab_apply v h p c

/-- The host's form of the same: a `[b]` vector first given a unit leading axis, then broadcast down `a` rows. -/
theorem rowOf_broadcastInDim_vec {α : Type} (x : (⟨1, ![b]⟩ : Shape).Idx → α)
    (h1 : (⟨1, ![b]⟩ : Shape).BroadcastsInDim ⟨2, ![1, b]⟩ ![1]) (h2 : (⟨2, ![1, b]⟩ : Shape).BroadcastsInDim ⟨2, ![a, b]⟩ ![0, 1]) (p : Fin a) :
    rowOf (broadcastInDim ⟨2, ![a, b]⟩ ![0, 1] h2 (broadcastInDim ⟨2, ![1, b]⟩ ![1] h1 x)) p = fun j => x (ix1 j) := by
  funext c
  show broadcastInDim ⟨2, ![a, b]⟩ ![0, 1] h2 (broadcastInDim ⟨2, ![1, b]⟩ ![1] h1 x) (ix2 p c) = x (ix1 c)
  rw [broadcastInDim_apply ![0, 1] h2 _ (ix2 p c) (ix2 (0 : Fin 1) c) (fun ax => by
        match ax with
        | ⟨0, _⟩ => show (0 : ℕ) = if (1 : ℕ) = 1 then 0 else p.val; rw [if_pos rfl]
        | ⟨1, _⟩ => show c.val = if b = 1 then 0 else c.val; split <;> [(have := c.isLt; omega); rfl]),
      broadcastInDim_apply ![1] h1 x (ix2 (0 : Fin 1) c) (ix1 c) (fun ax => by
        match ax with
        | ⟨0, _⟩ => show c.val = if b = 1 then 0 else c.val; split <;> [(have := c.isLt; omega); rfl])]

/-- A window of `m` columns from column `o`: the row's entries from `o` on. -/
theorem rowOf_slice_cols {α : Type} {n m : ℕ} (o : ℕ) (X : (⟨2, ![a, n]⟩ : Shape).Idx → α)
    (h : (⟨2, ![a, n]⟩ : Shape).Slices ![0, o] ⟨2, ![a, m]⟩) (p : Fin a) :
    rowOf (extractStridedSlice ⟨2, ![a, m]⟩ ![0, o] X h) p
      = fun j => rowOf X p ⟨o + j.val, Nat.lt_of_lt_of_le (Nat.add_lt_add_left j.isLt o) (h.2 1)⟩ :=
  funext fun j => slice2_axis1_eq o X h p j

/-- Two arrays concatenated along the columns: each row is the two rows side by side. -/
theorem rowOf_concat_cols {α : Type} {A B C : ℕ} (x : (⟨2, ![a, A]⟩ : Shape).Idx → α) (y : (⟨2, ![a, B]⟩ : Shape).Idx → α)
    (h : Shape.Concatenates [(⟨2, ![a, A]⟩ : Shape), ⟨2, ![a, B]⟩] ⟨2, ![a, C]⟩ 1) (hC : C = A + B) (p : Fin a) :
    rowOf (concatenate ⟨2, ![a, C]⟩ 1 [⟨⟨2, ![a, A]⟩, x⟩, ⟨⟨2, ![a, B]⟩, y⟩] h) p = join hC (rowOf x p) (rowOf y p) := by
  funext k
  show concatenate ⟨2, ![a, C]⟩ 1 [⟨⟨2, ![a, A]⟩, x⟩, ⟨⟨2, ![a, B]⟩, y⟩] h (ix2 p k) = _
  unfold join
  by_cases hk : k.val < A
  · rw [dif_pos hk]
    exact concatenate_pair_apply_left 1 x y h (ix2 p k) rfl (ix2 p ⟨k.val, hk⟩) (fun ax => by
      match ax with
      | ⟨0, _⟩ => rfl
      | ⟨1, _⟩ => rfl)
  · rw [dif_neg hk]
    have hk' : A ≤ k.val := Nat.le_of_not_lt hk
    exact concatenate_pair_apply_right 1 x y h (ix2 p k) rfl rfl (ix2 p ⟨k.val - A, by have := k.isLt; omega⟩)
      (fun ax hne => by
        match ax with
        | ⟨0, _⟩ => rfl
        | ⟨1, _⟩ => exact absurd rfl hne)
      (by show k.val - A + A = k.val; omega)

end Ops

/-! ## A dense layer as each program prints it -/

section Dense
variable {a K b : ℕ} {d : DotDims ⟨2, ![a, K]⟩ ⟨2, ![K, b]⟩ ⟨2, ![a, b]⟩} {φ₁ φ₂ : FTy}

/-- The device's dense layer — a product into a zero accumulator plus a `[1, b]` bias row broadcast down the rows —
    sends row `p` of the input to `dense` of it. -/
theorem rowOf_dense_device (H : RowsTimesCols d) (prec : Option ContractPrecision)
    (h : FVec Ideal ⟨2, ![a, K]⟩ φ₁) (w : FVec Ideal ⟨2, ![K, b]⟩ φ₂) (bias : FVec Ideal ⟨2, ![1, b]⟩ .f32)
    (hB : (⟨2, ![1, b]⟩ : Shape).Broadcasts ⟨2, ![a, b]⟩) (p : Fin a) :
    rowOf (addf (matmul d prec h w (constant (F := Ideal) ⟨2, ![a, b]⟩ .f32 0x00000000#32)) (broadcastTo ⟨2, ![a, b]⟩ bias hB)) p
      = dense (rowOf h p) w (rowOf bias 0) := by
  rw [rowOf_addf, rowOf_matmul_zero H, rowOf_broadcastTo]
  rfl

/-- The host's dense layer — a product plus a `[b]` bias vector given a unit leading axis and broadcast down the
    rows — sends row `p` of the input to `dense` of it. -/
theorem rowOf_dense_host (H : RowsTimesCols d) (prec : Option ContractPrecision)
    (h : FVec Ideal ⟨2, ![a, K]⟩ φ₁) (w : FVec Ideal ⟨2, ![K, b]⟩ φ₂) (bias : FVec Ideal ⟨1, ![b]⟩ .f32)
    (h1 : (⟨1, ![b]⟩ : Shape).BroadcastsInDim ⟨2, ![1, b]⟩ ![1]) (h2 : (⟨2, ![1, b]⟩ : Shape).BroadcastsInDim ⟨2, ![a, b]⟩ ![0, 1]) (p : Fin a) :
    rowOf (addf (Host.dotGeneral (F := Ideal) d prec h w) (broadcastInDim ⟨2, ![a, b]⟩ ![0, 1] h2 (broadcastInDim ⟨2, ![1, b]⟩ ![1] h1 bias))) p
      = dense (rowOf h p) w (fun j => bias (ix1 j)) := by
  rw [rowOf_addf, rowOf_dotGeneral H, rowOf_broadcastInDim_vec]
  rfl

end Dense

end Cert.RowLayers

end
-- ==== Proof.LibColumnBroadcast.lean ====
/-
  A column broadcast along the lanes, read at an index given by coordinates: an [a, 1] array broadcast to [a, b] reads, at
  (r, k), the operand's row r at its one column. (The keepdims form of a per-row scale: the row broadcast [1, b] → [a, b]
  and the unit-axis casts are the library's; this is their column counterpart, in the same style.)
-/
import Idealize.ShloMosaic.Lib.Pipeline.Value
import Idealize.ShloMosaic.Lib.ValueIdx

namespace Cert.ColumnBroadcast

open Idealize.ShloMosaic Idealize.ShloMosaic.ValueIdx

variable {α : Type}

/-- An `[a, 1]` array broadcast to `[a, b]` reads, at `(r, k)`, the operand at `(r, 0)`: on the row axis the
    coordinate is kept (and is `0` anyway when there is one row), on the unit axis it is `0`. -/
theorem broadcastTo_a1_ab_apply {a b : ℕ} (v : (⟨2, ![a, 1]⟩ : Shape).Idx → α) (h : (⟨2, ![a, 1]⟩ : Shape).Broadcasts ⟨2, ![a, b]⟩)
    (r : Fin a) (k : Fin b) : broadcastTo ⟨2, ![a, b]⟩ v h (ix2 r k) = v (ix2 r (0 : Fin 1)) := by
  refine broadcastTo_apply v h (ix2 r k) (ix2 r (0 : Fin 1)) fun ax => ?_
  match ax with
  | ⟨0, _⟩ =>
    show r.val = if a = 1 then 0 else r.val
    split
    · have := r.isLt; omega
    · rfl
  | ⟨1, _⟩ => rfl

end Cert.ColumnBroadcast
-- ==== Proof.LibChebRows.lean ====
/-
  Rows of a two-term Chebyshev graph layer and of a row-wise log-softmax, over the extended reals.

  A Chebyshev convolution of order two treats every node alone once the graph has been applied: node features `h` go
  through a first weight matrix, the features `t` propagated along the edges through a second one, and a bias is
  added — entry `j` of the node's new row is `(∑ k, h k · w₀[k, j]) + (∑ k, t k · w₁[k, j]) + b j` (`cheb`). The
  network's head sends a row `f` to `j ↦ (f j − M) − log (∑ k, exp (f k − M))`, `M` the row's largest entry
  (`logSoftmax`; `M` is a fold of `max` from a start value `z`, which both programs take to be −∞).
  This file names those row functions and reads, ROW BY ROW and for any number of rows, the array operations that
  compute them in the two forms a program may take: two matrix products into zero accumulators, a `[1, b]` bias row
  broadcast down the rows, lane reductions whose result is re-laid as a column and broadcast back (the device's);
  two `dot_general`s, a `[b]` bias given a unit axis and broadcast, host reductions broadcast back through a unit
  column (the host's). Both forms are the same row functions, which is all that joins the two programs.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import proofs.«153698_j72773925863659_1_alg».proof.Proof.LibRowLayers
import proofs.«153698_j72773925863659_1_alg».proof.Proof.LibColumnBroadcast

noncomputable section

namespace Cert.ChebRows

open Idealize.ShloMosaic Idealize.ShloMosaic.ValueIdx Cert.RowLayers

/-! ## The row functions -/

/-- One Chebyshev layer of order two on a node: its own features `h` through `w0`, the propagated features `t`
    through `w1`, plus the bias. -/
def cheb {K J : ℕ} (h t : Fin K → EReal) (w0 w1 : (⟨2, ![K, J]⟩ : Shape).Idx → EReal) (b : Fin J → EReal) : Fin J → EReal :=
  fun j => ((∑ k : Fin K, h k * w0 (ix2 k j)) + (∑ k : Fin K, t k * w1 (ix2 k j))) + b j

/-- The largest entry of a row, taken as a fold of `max` from a start value `z`. -/
def rowMax {n : ℕ} (z : EReal) (f : Fin n → EReal) : EReal := (Finset.univ : Finset (Fin n)).fold max z f

/-- The start value is below the fold, so taking the maximum with it once more changes nothing. -/
theorem max_rowMax {n : ℕ} (z : EReal) (f : Fin n → EReal) : max z (rowMax z f) = rowMax z f :=
  max_eq_right ((Finset.le_fold_max z).mpr (Or.inl le_rfl))

/-- log-softmax of a row: the row shifted by its largest entry, minus the logarithm of the sum of the exponentials of
    the shifted row. -/
def logSoftmax {n : ℕ} (z : EReal) (f : Fin n → EReal) : Fin n → EReal :=
  fun j => (f j - rowMax z f) - Ideal.log (∑ k : Fin n, Ideal.exp (f k - rowMax z f))

/-! ## The Chebyshev layer as each program prints it -/

section Layer
variable {a K b : ℕ} {d : DotDims ⟨2, ![a, K]⟩ ⟨2, ![K, b]⟩ ⟨2, ![a, b]⟩} {φ₁ φ₂ : FTy}

/-- The device's layer — two products into zero accumulators, added, plus a `[1, b]` bias row broadcast down the
    rows — sends rows `p` of the two inputs to `cheb` of them. -/
theorem rowOf_cheb_device (H : RowsTimesCols d) (prec : Option ContractPrecision)
    (h t : FVec Ideal ⟨2, ![a, K]⟩ φ₁) (w0 w1 : FVec Ideal ⟨2, ![K, b]⟩ φ₂) (bias : FVec Ideal ⟨2, ![1, b]⟩ .f32)
    (hB : (⟨2, ![1, b]⟩ : Shape).Broadcasts ⟨2, ![a, b]⟩) (p : Fin a) :
    rowOf (addf (addf (matmul d prec h w0 (constant (F := Ideal) ⟨2, ![a, b]⟩ .f32 0x00000000#32))
                      (matmul d prec t w1 (constant (F := Ideal) ⟨2, ![a, b]⟩ .f32 0x00000000#32)))
                (broadcastTo ⟨2, ![a, b]⟩ bias hB)) p
      = cheb (rowOf h p) (rowOf t p) w0 w1 (rowOf bias 0) := by
  rw [rowOf_addf, rowOf_addf, rowOf_matmul_zero H, rowOf_matmul_zero H, rowOf_broadcastTo]
  rfl

/-- The host's layer — two `dot_general`s, added, plus a `[b]` bias given a unit leading axis and broadcast down the
    rows — sends rows `p` of the two inputs to `cheb` of them. -/
theorem rowOf_cheb_host (H : RowsTimesCols d) (prec : Option ContractPrecision)
    (h t : FVec Ideal ⟨2, ![a, K]⟩ φ₁) (w0 w1 : FVec Ideal ⟨2, ![K, b]⟩ φ₂) (bias : FVec Ideal ⟨1, ![b]⟩ .f32)
    (h1 : (⟨1, ![b]⟩ : Shape).BroadcastsInDim ⟨2, ![1, b]⟩ ![1]) (h2 : (⟨2, ![1, b]⟩ : Shape).BroadcastsInDim ⟨2, ![a, b]⟩ ![0, 1]) (p : Fin a) :
    rowOf (addf (addf (Host.dotGeneral (F := Ideal) d prec h w0) (Host.dotGeneral (F := Ideal) d prec t w1))
                (broadcastInDim ⟨2, ![a, b]⟩ ![0, 1] h2 (broadcastInDim ⟨2, ![1, b]⟩ ![1] h1 bias))) p
      = cheb (rowOf h p) (rowOf t p) w0 w1 (fun j => bias (ix1 j)) := by
  rw [rowOf_addf, rowOf_addf, rowOf_dotGeneral H, rowOf_dotGeneral H, rowOf_broadcastInDim_vec]
  rfl

end Layer

/-! ## Reductions along the lanes, read on a row -/

section Reductions
variable {a n : ℕ} {φ : FTy}

/-- The reduced index `p` with lane `k` put back is `(p, k)`. -/
theorem lift_lane (h : (⟨2, ![a, n]⟩ : Shape).Reduces [1] (⟨1, ![a]⟩ : Shape)) (p : Fin a)
    (k : Fin ((⟨2, ![a, n]⟩ : Shape).size 1)) : h.lift (ix1 p) k = ix2 p (⟨k.val, k.isLt⟩ : Fin n) := by
  funext c; apply Fin.ext
  fin_cases c <;> rfl

/-- The device's maximum along the lanes, at row `p`: the fold of `max` over that row from the accumulator's value. -/
theorem multiReduction_max_row (src : FVec Ideal ⟨2, ![a, n]⟩ φ) (acc : BitVec φ.bits)
    (h : (⟨2, ![a, n]⟩ : Shape).Reduces [1] (⟨1, ![a]⟩ : Shape)) (hφ : FKind.Formats φ)
    (hacc : acc = FKind.maximumf.neutral φ hφ) (p : Fin a) :
    multiReduction .maximumf [1] ⟨1, ![a]⟩ src acc h hφ hacc (ix1 p) = rowMax (Ideal.ofBits φ acc) (rowOf src p) := by
  rw [Ideal.multiReduction_maximumf_single]
  have hf : (src ∘ h.lift (ix1 p)) = fun k : Fin n => src (ix2 p k) := funext fun k => congrArg src (lift_lane h p k)
  exact congrArg (fun f => Finset.fold max (Ideal.ofBits φ acc) f (Finset.univ : Finset (Fin n))) hf

/-- The device's sum along the lanes, at row `p`: the sum of that row. -/
theorem multiReduction_add_row (src : FVec Ideal ⟨2, ![a, n]⟩ φ) (acc : BitVec φ.bits)
    (h : (⟨2, ![a, n]⟩ : Shape).Reduces [1] (⟨1, ![a]⟩ : Shape)) (hφ : FKind.Formats φ)
    (hacc : acc = FKind.add.neutral φ hφ) (p : Fin a) :
    multiReduction .add [1] ⟨1, ![a]⟩ src acc h hφ hacc (ix1 p) = ∑ k : Fin n, src (ix2 p k) := by
  rw [Ideal.multiReduction_add_single]
  show (∑ k : Fin n, src (h.lift (ix1 p) k)) = _
  exact Finset.sum_congr rfl fun k _ => congrArg src (lift_lane h p k)

/-- The host's reduce with a maximum body along the lanes, at row `p`: the fold of `max` over that row from the initial value. -/
theorem hostReduce_max_row (x : FVec Ideal ⟨2, ![a, n]⟩ φ) (init : (⟨0, ![]⟩ : Shape).Idx → Ideal φ)
    (h' : (⟨2, ![a, n]⟩ : Shape).ReducesTo [1] (⟨1, ![a]⟩ : Shape)) (h : (⟨2, ![a, n]⟩ : Shape).Reduces [1] (⟨1, ![a]⟩ : Shape))
    (hu : 0 < (⟨0, ![]⟩ : Shape).numel) (p : Fin a) :
    Host.reduce FloatOps.maximumf x init h' hu (ix1 p) = rowMax (init (Shape.Idx.first hu)) (rowOf x p) := by
  rw [Host.reduce_eq_fold_single FloatOps.maximumf x init h' h hu]
  have hf : (x ∘ h.lift (ix1 p)) = fun k : Fin n => x (ix2 p k) := funext fun k => congrArg x (lift_lane h p k)
  exact congrArg (fun f => Finset.fold max (init (Shape.Idx.first hu)) f (Finset.univ : Finset (Fin n))) hf

/-- The host's float sum along the lanes, at row `p`: the initial value plus the sum of that row. -/
theorem hostReduceAdd_row (x : FVec Ideal ⟨2, ![a, n]⟩ φ) (init : (⟨0, ![]⟩ : Shape).Idx → Ideal φ)
    (h' : (⟨2, ![a, n]⟩ : Shape).ReducesTo [1] (⟨1, ![a]⟩ : Shape)) (h : (⟨2, ![a, n]⟩ : Shape).Reduces [1] (⟨1, ![a]⟩ : Shape))
    (hu : 0 < (⟨0, ![]⟩ : Shape).numel) (p : Fin a) :
    Host.reduceAdd x init h' hu (ix1 p) = init (Shape.Idx.first hu) + ∑ k : Fin n, x (ix2 p k) := by
  simp only [Host.reduceAdd, Ideal.hostReduceAdd_def]
  rw [Ideal.hostReduceAdd_single h' h]
  refine congrArg (_ + ·) ?_
  show (∑ k : Fin n, x (h.lift (ix1 p) k)) = _
  exact Finset.sum_congr rfl fun k _ => congrArg x (lift_lane h p k)

end Reductions

/-! ## A per-row value re-laid as a column and broadcast along the lanes -/

section Column
variable {α : Type} {a n : ℕ}

/-- An `[a]` array cast to `[a, 1]` reads, at `(i, u)`, the operand at `i`. -/
theorem shapeCast_a_a1_apply (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The device's keep-dims form: an `[a]` array cast to a column and broadcast to `[a, n]` reads, at `(p, j)`, entry `p`. -/
theorem column_device_apply (v : (⟨1, ![a]⟩ : Shape).Idx → α) (hc : (⟨1, ![a]⟩ : Shape).ShapeCasts ⟨2, ![a, 1]⟩)
    (hb : (⟨2, ![a, 1]⟩ : Shape).Broadcasts ⟨2, ![a, n]⟩) (p : Fin a) (j : Fin n) :
    broadcastTo ⟨2, ![a, n]⟩ (shapeCast ⟨2, ![a, 1]⟩ v hc) hb (ix2 p j) = v (ix1 p) :=
  (Cert.ColumnBroadcast.broadcastTo_a1_ab_apply _ hb p j).trans (shapeCast_a_a1_apply v hc p 0)

/-- The host's first step: an `[a]` array given a trailing unit axis reads, at `(p, u)`, entry `p`. -/
theorem column_host_apply (v : (⟨1, ![a]⟩ : Shape).Idx → α) (h1 : (⟨1, ![a]⟩ : Shape).BroadcastsInDim ⟨2, ![a, 1]⟩ ![0])
    (p : Fin a) (u : Fin 1) : broadcastInDim ⟨2, ![a, 1]⟩ ![0] h1 v (ix2 p u) = v (ix1 p) :=
  broadcastInDim_apply ![0] h1 v (ix2 p u) (ix1 p) (fun ax => by
    match ax with
    | ⟨0, _⟩ =>
      show p.val = if a = 1 then 0 else p.val
      split
      · have := p.isLt; omega
      · rfl)

/-- The host's second step: an `[a, 1]` column broadcast to `[a, n]` reads, at `(p, j)`, the column at `(p, 0)`. -/
theorem lanes_host_apply (w : (⟨2, ![a, 1]⟩ : Shape).Idx → α) (h2 : (⟨2, ![a, 1]⟩ : Shape).BroadcastsInDim ⟨2, ![a, n]⟩ ![0, 1])
    (p : Fin a) (j : Fin n) : broadcastInDim ⟨2, ![a, n]⟩ ![0, 1] h2 w (ix2 p j) = w (ix2 p (0 : Fin 1)) :=
  broadcastInDim_apply ![0, 1] h2 w (ix2 p j) (ix2 p (0 : Fin 1)) (fun ax => by
    match ax with
    | ⟨0, _⟩ =>
      show p.val = if a = 1 then 0 else p.val
      split
      · have := p.isLt; omega
      · rfl
    | ⟨1, _⟩ => rfl)

end Column

/-! ## Arrays given row by row -/

section Arrays
variable {a K J : ℕ}

/-- Plane `o` of a stack of two `[K, J]` weight matrices. -/
def plane (W : (⟨3, ![2, K, J]⟩ : Shape).Idx → EReal) (o : Fin 2) : (⟨2, ![K, J]⟩ : Shape).Idx → EReal :=
  fun kj => W (ix3 o (kj 0) (kj 1))

theorem plane_apply (W : (⟨3, ![2, K, J]⟩ : Shape).Idx → EReal) (o : Fin 2) (k : Fin K) (j : Fin J) :
    plane W o (ix2 k j) = W (ix3 o k j) := rfl

/-- `cheb` reads its weight matrices at `(k, j)` only: matrices that agree there give the same row. -/
theorem cheb_congr (h t : Fin K → EReal) {w0 w1 w0' w1' : (⟨2, ![K, J]⟩ : Shape).Idx → EReal} (b : Fin J → EReal)
    (e0 : ∀ (k : Fin K) (j : Fin J), w0 (ix2 k j) = w0' (ix2 k j)) (e1 : ∀ (k : Fin K) (j : Fin J), w1 (ix2 k j) = w1' (ix2 k j)) :
    cheb h t w0 w1 b = cheb h t w0' w1' b := by
  funext j
  unfold cheb
  simp only [e0, e1]

/-- The hidden layer of every node: the rectified Chebyshev layer of the node's rows of `x` and of the propagated `tx`. -/
def chebReluArr (z : EReal) (x tx : (⟨2, ![a, K]⟩ : Shape).Idx → EReal) (w0 w1 : (⟨2, ![K, J]⟩ : Shape).Idx → EReal)
    (b : Fin J → EReal) : (⟨2, ![a, J]⟩ : Shape).Idx → EReal :=
  fun i => relu z (cheb (rowOf x (i 0)) (rowOf tx (i 0)) w0 w1 b) (i 1)

/-- The output layer of every node: the log-softmax of the Chebyshev layer of the node's rows. -/
def chebLogSoftmaxArr (z : EReal) (x tx : (⟨2, ![a, K]⟩ : Shape).Idx → EReal) (w0 w1 : (⟨2, ![K, J]⟩ : Shape).Idx → EReal)
    (b : Fin J → EReal) : (⟨2, ![a, J]⟩ : Shape).Idx → EReal :=
  fun i => logSoftmax z (cheb (rowOf x (i 0)) (rowOf tx (i 0)) w0 w1 b) (i 1)

theorem chebReluArr_ix2 (z : EReal) (x tx : (⟨2, ![a, K]⟩ : Shape).Idx → EReal) (w0 w1 : (⟨2, ![K, J]⟩ : Shape).Idx → EReal)
    (b : Fin J → EReal) (p : Fin a) (q : Fin J) :
    chebReluArr z x tx w0 w1 b (ix2 p q) = relu z (cheb (rowOf x p) (rowOf tx p) w0 w1 b) q := rfl

theorem chebLogSoftmaxArr_ix2 (z : EReal) (x tx : (⟨2, ![a, K]⟩ : Shape).Idx → EReal) (w0 w1 : (⟨2, ![K, J]⟩ : Shape).Idx → EReal)
    (b : Fin J → EReal) (p : Fin a) (q : Fin J) :
    chebLogSoftmaxArr z x tx w0 w1 b (ix2 p q) = logSoftmax z (cheb (rowOf x p) (rowOf tx p) w0 w1 b) q := rfl

/-- An array whose every row is the rectified layer of the inputs' rows IS the hidden-layer array. -/
theorem eq_chebReluArr_of_rows (z : EReal) (x tx : (⟨2, ![a, K]⟩ : Shape).Idx → EReal) (w0 w1 : (⟨2, ![K, J]⟩ : Shape).Idx → EReal)
    (b : Fin J → EReal) (A : (⟨2, ![a, J]⟩ : Shape).Idx → EReal)
    (hA : ∀ p : Fin a, rowOf A p = relu z (cheb (rowOf x p) (rowOf tx p) w0 w1 b)) : A = chebReluArr z x tx w0 w1 b :=
  funext fun i => (apply_eq_rowOf A i).trans (congrFun (hA (i 0)) (i 1))

/-- An array whose every entry is the log-softmax of the layer of the inputs' rows IS the output-layer array. -/
theorem eq_chebLogSoftmaxArr_of_entries (z : EReal) (x tx : (⟨2, ![a, K]⟩ : Shape).Idx → EReal) (w0 w1 : (⟨2, ![K, J]⟩ : Shape).Idx → EReal)
    (b : Fin J → EReal) (A : (⟨2, ![a, J]⟩ : Shape).Idx → EReal)
    (hA : ∀ (p : Fin a) (q : Fin J), A (ix2 p q) = logSoftmax z (cheb (rowOf x p) (rowOf tx p) w0 w1 b) q) :
    A = chebLogSoftmaxArr z x tx w0 w1 b :=
  funext fun i => (congrArg A (eq_ix2 i)).trans (hA (i 0) (i 1))

end Arrays

end Cert.ChebRows

end
-- ==== Proof.LibMeanLayer.lean ====
/-
  The mean-aggregating graph layer, row by row, over the extended reals.

  A node's new features are computed from three rows that belong to it: the sum `agg` of its in-neighbours'
  features, the number `cnt` of those neighbours, and its own features `x`. The neighbour mean is
  `agg k / max cnt one` entry by entry (the quotient of the extended reals, `Ideal.div`); the mean goes through a
  dense layer with weights `wl` and bias `b`, the node's own row through weights `wr`, and the sum is rectified at
  `zero`:

      meanRow … j = max ((∑ k, (agg k / max cnt one) · wl[k, j]) + b j + ∑ k, x k · wr[k, j]) zero.

  `meanLayer` applies this to every row of arrays with ANY number of rows, so that one function describes a block of
  rows and the whole array. Read here as `meanLayer`: the device's spelling on a block (the count column broadcast
  along the lanes, two products into zero accumulators, a `[1, J]` bias row broadcast down the rows, a maximum with a
  splat scalar) and the host's spelling on the whole array (the count column broadcast by `broadcast_in_dim`, two
  `dot_general`s, a `[J]` bias given a unit axis and broadcast, a maximum with a broadcast rank-0 constant). Both
  add the three terms in the same order, so no law of arithmetic is needed and no entry has to be finite.
  `meanLayer_block`: for a block holding rows `R·n …` of its arrays, the layer of the block at `(p, q)` is the layer
  of the arrays at `(R·n + p, q)`.
-/
import proofs.«153698_j72773925863659_1_alg».proof.Proof.LibRowLayers
import proofs.«153698_j72773925863659_1_alg».proof.Proof.LibColumnBroadcast
import proofs.«153698_j72773925863659_1_alg».proof.Proof.LibChebRows

noncomputable section

namespace Cert.MeanLayer

open Idealize.ShloMosaic Idealize.ShloMosaic.ValueIdx Cert.RowLayers

/-- An `[a, b]` array of extended reals. -/
abbrev A2 (a b : ℕ) : Type := (⟨2, ![a, b]⟩ : Shape).Idx → EReal

/-! ## The layer on one row, and on every row of an array -/

/-- The neighbour mean of a row: `agg k / max cnt one`. -/
def meanOf {K : ℕ} (one : EReal) (agg : Fin K → EReal) (cnt : EReal) : Fin K → EReal :=
  fun k => Ideal.div (agg k) (max cnt one)

/-- The layer on one node. -/
def meanRow {K J : ℕ} (one zero : EReal) (agg : Fin K → EReal) (cnt : EReal) (x : Fin K → EReal)
    (wl wr : A2 K J) (b : Fin J → EReal) : Fin J → EReal :=
  relu zero fun j => dense (meanOf one agg cnt) wl b j + ∑ k : Fin K, x k * wr (ix2 k j)

/-- The layer on every row: entry `(r, q)` is `meanRow` of row `r` of `agg`, of `cnt[r, 0]` and of row `r` of `x`, at `q`. -/
def meanLayer {a K J : ℕ} (one zero : EReal) (agg : A2 a K) (cnt : A2 a 1) (x : A2 a K) (wl wr : A2 K J)
    (b : Fin J → EReal) : A2 a J :=
  fun i => meanRow one zero (rowOf agg (i 0)) (cnt (ix2 (i 0) (0 : Fin 1))) (rowOf x (i 0)) wl wr b (i 1)

theorem meanLayer_ix2 {a K J : ℕ} (one zero : EReal) (agg : A2 a K) (cnt : A2 a 1) (x : A2 a K) (wl wr : A2 K J)
    (b : Fin J → EReal) (r : Fin a) (q : Fin J) :
    meanLayer one zero agg cnt x wl wr b (ix2 r q)
      = meanRow one zero (rowOf agg r) (cnt (ix2 r (0 : Fin 1))) (rowOf x r) wl wr b q := rfl

/-- An array all of whose rows are `meanRow` of the matching rows is `meanLayer`. -/
theorem eq_meanLayer_of_rows {a K J : ℕ} (one zero : EReal) (agg : A2 a K) (cnt : A2 a 1) (x : A2 a K) (wl wr : A2 K J)
    (b : Fin J → EReal) (out : A2 a J)
    (h : ∀ r : Fin a, rowOf out r = meanRow one zero (rowOf agg r) (cnt (ix2 r (0 : Fin 1))) (rowOf x r) wl wr b) :
    out = meanLayer one zero agg cnt x wl wr b := by
  funext i
  obtain ⟨r, q, rfl⟩ : ∃ (r : Fin a) (q : Fin J), i = ix2 r q := ⟨i 0, i 1, eq_ix2 i⟩
  exact congrFun (h r) q

/-! ## The device's spelling on a block of rows -/

/-- The device's neighbour mean — the aggregate divided by the count column, floored at a splat scalar and broadcast
    along the lanes — on a row. -/
theorem rowOf_mean_device {a K : ℕ} (wone : BitVec 32) (agg : FVec Ideal ⟨2, ![a, K]⟩ .f32) (cnt : FVec Ideal ⟨2, ![a, 1]⟩ .f32)
    (hS : (⟨2, ![a, 1]⟩ : Shape).Broadcasts ⟨2, ![a, K]⟩) (r : Fin a) :
    rowOf (divf agg (broadcastTo ⟨2, ![a, K]⟩ (maximumf cnt (broadcast ⟨2, ![a, 1]⟩ (Scalar.ofBits (F := Ideal) .f32 wone))) hS)) r
      = meanOf (Ideal.ofBits .f32 wone) (rowOf agg r) (cnt (ix2 r (0 : Fin 1))) := by
  funext k
  show divf agg (broadcastTo ⟨2, ![a, K]⟩ (maximumf cnt (broadcast ⟨2, ![a, 1]⟩ (Scalar.ofBits (F := Ideal) .f32 wone))) hS) (ix2 r k) = _
  rw [divf_apply, Cert.ColumnBroadcast.broadcastTo_a1_ab_apply]
  rfl

/-- The device's layer on a block: `max ((mean·wl + bias row) + x·wr) zero` with both products into zero accumulators. -/
theorem device_meanLayer {a K J : ℕ} {d : DotDims ⟨2, ![a, K]⟩ ⟨2, ![K, J]⟩ ⟨2, ![a, J]⟩} (H : RowsTimesCols d)
    (wone wzero : BitVec 32) (agg x : FVec Ideal ⟨2, ![a, K]⟩ .f32) (cnt : FVec Ideal ⟨2, ![a, 1]⟩ .f32)
    (wl wr : FVec Ideal ⟨2, ![K, J]⟩ .f32) (bl : FVec Ideal ⟨2, ![1, J]⟩ .f32)
    (hS : (⟨2, ![a, 1]⟩ : Shape).Broadcasts ⟨2, ![a, K]⟩) (hB : (⟨2, ![1, J]⟩ : Shape).Broadcasts ⟨2, ![a, J]⟩) :
    maximumf
        (addf
          (addf
            (matmul d none
              (divf agg (broadcastTo ⟨2, ![a, K]⟩ (maximumf cnt (broadcast ⟨2, ![a, 1]⟩ (Scalar.ofBits (F := Ideal) .f32 wone))) hS))
              wl (constant (F := Ideal) ⟨2, ![a, J]⟩ .f32 0x00000000#32))
            (broadcastTo ⟨2, ![a, J]⟩ bl hB))
          (matmul d none x wr (constant (F := Ideal) ⟨2, ![a, J]⟩ .f32 0x00000000#32)))
        (broadcast ⟨2, ![a, J]⟩ (Scalar.ofBits (F := Ideal) .f32 wzero))
      = meanLayer (Ideal.ofBits .f32 wone) (Ideal.ofBits .f32 wzero) agg cnt x wl wr (rowOf bl 0) := by
  refine eq_meanLayer_of_rows _ _ agg cnt x wl wr _ _ fun r => ?_
  rw [rowOf_maximumf_splat, rowOf_addf, rowOf_dense_device H, rowOf_matmul_zero H, rowOf_mean_device]
  rfl

/-! ## The host's spelling on the whole array -/

/-- The host's neighbour mean — the count column floored at a broadcast rank-0 constant and broadcast along the
    second axis by `broadcast_in_dim` — on a row. -/
theorem rowOf_mean_host {a K : ℕ} {s : Shape} (wone : BitVec 32) (agg : FVec Ideal ⟨2, ![a, K]⟩ .f32) (cnt : FVec Ideal ⟨2, ![a, 1]⟩ .f32)
    (dims : Fin s.rank → Fin 2) (hc : s.BroadcastsInDim ⟨2, ![a, 1]⟩ dims)
    (h2 : (⟨2, ![a, 1]⟩ : Shape).BroadcastsInDim ⟨2, ![a, K]⟩ ![0, 1]) (r : Fin a) :
    rowOf (Host.divf (F := Ideal) agg (broadcastInDim ⟨2, ![a, K]⟩ ![0, 1] h2
        (maximumf cnt (broadcastInDim ⟨2, ![a, 1]⟩ dims hc (constant (F := Ideal) s .f32 wone))))) r
      = meanOf (Ideal.ofBits .f32 wone) (rowOf agg r) (cnt (ix2 r (0 : Fin 1))) := by
  funext k
  show FloatOps.hostDivf (agg (ix2 r k)) (broadcastInDim ⟨2, ![a, K]⟩ ![0, 1] h2
        (maximumf cnt (broadcastInDim ⟨2, ![a, 1]⟩ dims hc (constant (F := Ideal) s .f32 wone))) (ix2 r k)) = _
  rw [Cert.ChebRows.lanes_host_apply]
  rfl

/-- The host's layer on the whole array: `max ((mean·wl + bias) + x·wr) zero` with `dot_general`s, the bias a vector. -/
theorem host_meanLayer {a K J : ℕ} {d : DotDims ⟨2, ![a, K]⟩ ⟨2, ![K, J]⟩ ⟨2, ![a, J]⟩} (H : RowsTimesCols d) {s s' : Shape}
    (wone wzero : BitVec 32) (agg x : FVec Ideal ⟨2, ![a, K]⟩ .f32) (cnt : FVec Ideal ⟨2, ![a, 1]⟩ .f32)
    (wl wr : FVec Ideal ⟨2, ![K, J]⟩ .f32) (bl : FVec Ideal ⟨1, ![J]⟩ .f32)
    (dims : Fin s.rank → Fin 2) (hc : s.BroadcastsInDim ⟨2, ![a, 1]⟩ dims)
    (h2 : (⟨2, ![a, 1]⟩ : Shape).BroadcastsInDim ⟨2, ![a, K]⟩ ![0, 1])
    (hb1 : (⟨1, ![J]⟩ : Shape).BroadcastsInDim ⟨2, ![1, J]⟩ ![1]) (hb2 : (⟨2, ![1, J]⟩ : Shape).BroadcastsInDim ⟨2, ![a, J]⟩ ![0, 1])
    (dims' : Fin s'.rank → Fin 2) (hz : s'.BroadcastsInDim ⟨2, ![a, J]⟩ dims') :
    maximumf
        (addf
          (addf
            (Host.dotGeneral (F := Ideal) d none
              (Host.divf (F := Ideal) agg (broadcastInDim ⟨2, ![a, K]⟩ ![0, 1] h2
                (maximumf cnt (broadcastInDim ⟨2, ![a, 1]⟩ dims hc (constant (F := Ideal) s .f32 wone)))))
              wl)
            (broadcastInDim ⟨2, ![a, J]⟩ ![0, 1] hb2 (broadcastInDim ⟨2, ![1, J]⟩ ![1] hb1 bl)))
          (Host.dotGeneral (F := Ideal) d none x wr))
        (broadcastInDim ⟨2, ![a, J]⟩ dims' hz (constant (F := Ideal) s' .f32 wzero))
      = meanLayer (Ideal.ofBits .f32 wone) (Ideal.ofBits .f32 wzero) agg cnt x wl wr (fun j => bl (ix1 j)) := by
  refine eq_meanLayer_of_rows _ _ agg cnt x wl wr _ _ fun r => ?_
  rw [rowOf_maximumf_const, rowOf_addf, rowOf_dense_host H, rowOf_dotGeneral H, rowOf_mean_host]
  rfl

/-! ## A block of rows against the whole array -/

/-- Blocks of the aggregate, of the count column and of the features holding rows `R·n …` of their arrays: the
    layer of the blocks at `(p, q)` is the layer of the arrays at `(R·n + p, q)`. -/
theorem meanLayer_block {A a K J R : ℕ} (one zero : EReal) (AGG X : A2 A K) (CNT : A2 A 1) (wl wr : A2 K J) (b : Fin J → EReal)
    (x0 x2 : A2 a K) (x1 : A2 a 1) (n : ℕ)
    (h0 : ∀ (y : (⟨2, ![a, K]⟩ : Shape).Idx) (k : (⟨2, ![A, K]⟩ : Shape).Idx),
      (k 0).val = R * n + (y 0).val → (k 1).val = (y 1).val → x0 y = AGG k)
    (h1 : ∀ (y : (⟨2, ![a, 1]⟩ : Shape).Idx) (k : (⟨2, ![A, 1]⟩ : Shape).Idx),
      (k 0).val = R * n + (y 0).val → (k 1).val = (y 1).val → x1 y = CNT k)
    (h2 : ∀ (y : (⟨2, ![a, K]⟩ : Shape).Idx) (k : (⟨2, ![A, K]⟩ : Shape).Idx),
      (k 0).val = R * n + (y 0).val → (k 1).val = (y 1).val → x2 y = X k)
    (y : (⟨2, ![a, J]⟩ : Shape).Idx) (i : (⟨2, ![A, J]⟩ : Shape).Idx)
    (hi0 : (i 0).val = R * n + (y 0).val) (hi1 : (i 1).val = (y 1).val) :
    meanLayer one zero x0 x1 x2 wl wr b y = meanLayer one zero AGG CNT X wl wr b i := by
  obtain ⟨p, q, rfl⟩ : ∃ (p : Fin a) (q : Fin J), y = ix2 p q := ⟨y 0, y 1, eq_ix2 y⟩
  obtain ⟨r, q', rfl⟩ : ∃ (r : Fin A) (q' : Fin J), i = ix2 r q' := ⟨i 0, i 1, eq_ix2 i⟩
  obtain rfl : q' = q := Fin.ext hi1
  rw [meanLayer_ix2, meanLayer_ix2]
  have e0 : rowOf x0 p = rowOf AGG r := funext fun k => h0 (ix2 p k) (ix2 r k) hi0 rfl
  have e1 : x1 (ix2 p (0 : Fin 1)) = CNT (ix2 r (0 : Fin 1)) := h1 (ix2 p 0) (ix2 r 0) hi0 rfl
  have e2 : rowOf x2 p = rowOf X r := funext fun k => h2 (ix2 p k) (ix2 r k) hi0 rfl
  rw [e0, e1, e2]

end Cert.MeanLayer

end
-- ==== Proof.LayerSpec.lean ====
/-
  One layer of the network as a function of arrays.

  Every layer sends the aggregate `agg` (the sum over each node's in-neighbours of their feature rows), the count column
  `cnt` (each node's number of in-neighbours), the features `x`, two `[128, 128]` weight matrices and a bias to

      out[r, q] = max ((∑ k, (agg[r, k] / max cnt[r, 0] 1) · wl[q, k]) + b[q] + ∑ k, x[r, k] · wr[q, k]) 0,

  the weight matrices entering through their transposes (both programs transpose them by the same operation, so the
  transposed matrix is kept as it is printed and never opened). `layerOf` is this function for arrays of any number of
  rows, with the bias given as the one row of a `[1, 128]` array; the constants are the two float patterns of 1 and 0.
-/
import proofs.«153698_j72773925863659_1_alg».proof.Proof.LibMeanLayer

noncomputable section

namespace Cert.Spec

open Idealize.ShloMosaic Idealize.ShloMosaic.ValueIdx Cert.RowLayers Cert.MeanLayer

/-- The float pattern of `1.0`, as an extended real. -/
abbrev one : EReal := Ideal.ofBits .f32 0x3F800000#32
/-- The float pattern of `0.0`, as an extended real. -/
abbrev zero : EReal := Ideal.ofBits .f32 0x00000000#32

/-- A layer with its bias given as a row function. -/
def layerRow {a : ℕ} (hT : (⟨2, ![128, 128]⟩ : Shape).Transposes [1, 0] ⟨2, ![128, 128]⟩)
    (agg : A2 a 128) (cnt : A2 a 1) (x : A2 a 128) (wl wr : A2 128 128) (b : Fin 128 → EReal) : A2 a 128 :=
  meanLayer one zero agg cnt x (transpose ⟨2, ![128, 128]⟩ [1, 0] wl hT) (transpose ⟨2, ![128, 128]⟩ [1, 0] wr hT) b

/-- A layer with its bias given as the one row of a `[1, 128]` array. -/
def layerOf {a : ℕ} (hT : (⟨2, ![128, 128]⟩ : Shape).Transposes [1, 0] ⟨2, ![128, 128]⟩)
    (agg : A2 a 128) (cnt : A2 a 1) (x : A2 a 128) (wl : A2 128 128) (b : A2 1 128) (wr : A2 128 128) : A2 a 128 :=
  layerRow hT agg cnt x wl wr (rowOf b 0)

end Cert.Spec

end
-- ==== Proof.KernelDims.lean ====
/-
  What the three launches share: the layer's matrix products are "rows times columns".

  Each launch computes, on a block of 10000 rows, two products `[10000, 128] × [128, 128]` whose dimension numbers
  contract the left operand's second axis with the right operand's first: entry `(p, q)` is `∑ k, lhs[p, k] · rhs[k, q]`.
  The right operand is the transposed weight matrix, which the value proof never opens: both programs transpose the
  same weights by the same operation.
-/
import proofs.«153698_j72773925863659_1_alg».proof.Proof.Gen.KernelIdeal
import proofs.«153698_j72773925863659_1_alg».proof.Proof.LayerSpec

noncomputable section

namespace Cert.KernelIdeal.Hand

open Cert.KernelIdeal Cert.KernelIdeal.Gen Idealize.ShloMosaic Idealize.ShloMosaic.ValueIdx Cert.RowLayers

/-- The kernel's product reads the left operand at (output row, contracted position) and the right one at
    (contracted position, output column). -/
theorem kdot_rows : RowsTimesCols dot_S10000x128_S128x128_S10000x128_1_0_0_1_n_n where
  rank := rfl
  size := rfl
  lhs0 := fun j q => by
    unfold DotDims.lhsIdx
    rw [dif_neg (show ¬(0 : Fin S10000x128.rank) ∈ dot_S10000x128_S128x128_S10000x128_1_0_0_1_n_n.lhsBatch by decide),
      dif_pos (show (0 : Fin S10000x128.rank) ∈ dot_S10000x128_S128x128_S10000x128_1_0_0_1_n_n.lhsNonContracting by decide)]
    rfl
  lhs1 := fun j q => dot_S10000x128_S128x128_S10000x128_1_0_0_1_n_n.lhsIdx_val_of_single rfl j q
  rhs0 := fun j q => dot_S10000x128_S128x128_S10000x128_1_0_0_1_n_n.rhsIdx_val_of_single rfl j q
  rhs1 := fun j q => by
    unfold DotDims.rhsIdx
    rw [dif_neg (show ¬(1 : Fin S128x128.rank) ∈ dot_S10000x128_S128x128_S10000x128_1_0_0_1_n_n.rhsBatch by decide),
      dif_pos (show (1 : Fin S128x128.rank) ∈ dot_S10000x128_S128x128_S10000x128_1_0_0_1_n_n.rhsNonContracting by decide)]
    rfl

/-- A rectangle's offsets `[0, 0]` are the zero offsets. -/
theorem hz : (![0, 0] : Fin 2 → Nat) = fun _ => 0 := funext fun a => by fin_cases a <;> rfl

end Cert.KernelIdeal.Hand

end
-- ==== Proof.Layer0.lean ====
/-
  Launch 0 of the layer: what its output array holds when the launch ends.

  The launch walks the 100000 rows in ten blocks of 10000. At grid point `t` it stages rows `10000·t …` of the
  aggregate, of the count column and of the features, the two weight matrices and the bias row whole, and writes
  back rows `10000·t …` of the output. The body's one store is the layer of the staged blocks (`pay_eq`); a block's
  row `p` is the array's row `10000·t + p` (`rows_*`), and the layer treats every row alone, so what point `t`
  writes back is block `t` of the layer of the whole arrays (`flushed_eq`). The ten blocks cover the array
  (`cover`), hence the array ends holding the layer of the arrays the launch found (`final`).
-/
import proofs.«153698_j72773925863659_1_alg».proof.Proof.Gen.KernelIdeal.Frame
import proofs.«153698_j72773925863659_1_alg».proof.Proof.KernelDims
import Idealize.ShloMosaic.Lib.Pipeline.Value

set_option maxRecDepth 16384

noncomputable section

namespace Cert.KernelIdeal.Layer0

open Cert.KernelIdeal Cert.KernelIdeal.Gen Cert.KernelIdeal.Hand
open Idealize.ShloMosaic Idealize.ShloMosaic.TcCoe Idealize.SL.Sem Idealize.ShloMosaic.ValueIdx
open Cert.RowLayers Cert.MeanLayer Cert.Spec

/-- The evidence the body's transposition carries. -/
local notation "hT" => Facts₀.transposes_S128x128_p1_0_S128x128
open Idealize.ShloMosaic.Pipeline (Dat)

variable (V : (c : Dev nD) → (b : Ref sig .tc) → Buf (Elt Ideal) ((c : Thread nD τ).loc b))

/-- The body's stored value is the layer of the blocks it loaded: the count column floored at 1 and broadcast along
    the lanes, the two products into zero accumulators, the bias row broadcast down the rows, the maximum with 0. -/
theorem pay_eq (x0 : Vec Ideal S10000x128 .f32) (x1 : Vec Ideal S10000x1 .f32) (x3 : Vec Ideal S128x128 .f32)
    (x4 : Vec Ideal S1x128 .f32) (x2 : Vec Ideal S10000x128 .f32) (x5 : Vec Ideal S128x128 .f32) :
    k0_pay1 x0 x1 x3 x4 x2 x5 = layerOf hT x0 x1 x2 x3 x4 x5 := by
  unfold k0_pay1 layerOf layerRow
  simp only [shapeCast_self]
  exact device_meanLayer kdot_rows 0x3F800000#32 0x00000000#32 x0 x2 x1 _ _ x4 _ _

/-- The printed index maps over the grid: the row-tiled windows sit at block `(t, 0)`, the whole ones at `(0, 0)`. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- The aggregate's block at point `t` holds rows `10000·t …` of the aggregate. -/
theorem rows_agg (c : Dev nD) (t : Fin cfg0.N) (y : S10000x128.Idx) (k : S100000x128.Idx)
    (hk0 : (k 0).val = 10000 * t.val + (y 0).val) (hk1 : (k 1).val = (y 1).val) :
    (iblk0 V c 0 t : S10000x128.Idx → EReal) y = (V c main_v17 : S100000x128.Idx → EReal) k := by
  obtain ⟨e0, e1, -⟩ := idx_facts t
  unfold iblk0
  rw [View.read_apply]
  show V c main_v17 _ = V c main_v17 _
  congr 1
  funext a
  apply Fin.ext
  match a with
  | ⟨0, _⟩ => show win0_0.index t (0 : Fin 2) * 10000 + 1 * (y 0).val = (k 0).val; rw [e0, hk0]; omega
  | ⟨1, _⟩ => show win0_0.index t (1 : Fin 2) * 128 + 1 * (y 1).val = (k 1).val; rw [e1, hk1]; omega

/-- The count column's block at point `t` holds rows `10000·t …` of the count column. -/
theorem rows_cnt (c : Dev nD) (t : Fin cfg0.N) (y : S10000x1.Idx) (k : S100000x1.Idx)
    (hk0 : (k 0).val = 10000 * t.val + (y 0).val) (hk1 : (k 1).val = (y 1).val) :
    (iblk0 V c 1 t : S10000x1.Idx → EReal) y = (V c main_v7 : S100000x1.Idx → EReal) k := by
  obtain ⟨-, -, e0, e1, -⟩ := idx_facts t
  unfold iblk0
  rw [View.read_apply]
  show V c main_v7 _ = V c main_v7 _
  congr 1
  funext a
  apply Fin.ext
  match a with
  | ⟨0, _⟩ => show win0_1.index t (0 : Fin 2) * 10000 + 1 * (y 0).val = (k 0).val; rw [e0, hk0]; omega
  | ⟨1, _⟩ => show win0_1.index t (1 : Fin 2) * 1 + 1 * (y 1).val = (k 1).val; rw [e1, hk1]; omega

/-- The features' block at point `t` holds rows `10000·t …` of the features. -/
theorem rows_x (c : Dev nD) (t : Fin cfg0.N) (y : S10000x128.Idx) (k : S100000x128.Idx)
    (hk0 : (k 0).val = 10000 * t.val + (y 0).val) (hk1 : (k 1).val = (y 1).val) :
    (iblk0 V c 2 t : S10000x128.Idx → EReal) y = (V c main_arg0 : S100000x128.Idx → EReal) k := by
  obtain ⟨-, -, -, -, e0, e1, -⟩ := idx_facts t
  unfold iblk0
  rw [View.read_apply]
  show V c main_arg0 _ = V c main_arg0 _
  congr 1
  funext a
  apply Fin.ext
  match a with
  | ⟨0, _⟩ => show win0_2.index t (0 : Fin 2) * 10000 + 1 * (y 0).val = (k 0).val; rw [e0, hk0]; omega
  | ⟨1, _⟩ => show win0_2.index t (1 : Fin 2) * 128 + 1 * (y 1).val = (k 1).val; rw [e1, hk1]; omega

/-- The first weight matrix is staged whole at every point. -/
theorem whole_wl (c : Dev nD) (t : Fin cfg0.N) :
    (iblk0 V c 3 t : S128x128.Idx → EReal) = (V c main_arg2 : S128x128.Idx → EReal) := by
  obtain ⟨-, -, -, -, -, -, e0, e1, -⟩ := idx_facts t
  funext y
  unfold iblk0
  rw [View.read_apply]
  show V c main_arg2 _ = V c main_arg2 _
  congr 1
  funext a
  apply Fin.ext
  match a with
  | ⟨0, _⟩ => show win0_3.index t (0 : Fin 2) * 128 + 1 * (y 0).val = (y 0).val; rw [e0]; omega
  | ⟨1, _⟩ => show win0_3.index t (1 : Fin 2) * 128 + 1 * (y 1).val = (y 1).val; rw [e1]; omega

/-- The bias row is staged whole at every point. -/
theorem whole_b (c : Dev nD) (t : Fin cfg0.N) :
    (iblk0 V c 4 t : S1x128.Idx → EReal) = (V c main_v18 : S1x128.Idx → EReal) := by
  obtain ⟨-, -, -, -, -, -, -, -, e0, e1, -⟩ := idx_facts t
  funext y
  unfold iblk0
  rw [View.read_apply]
  show V c main_v18 _ = V c main_v18 _
  congr 1
  funext a
  apply Fin.ext
  match a with
  | ⟨0, _⟩ => show win0_4.index t (0 : Fin 2) * 1 + 1 * (y 0).val = (y 0).val; rw [e0]; omega
  | ⟨1, _⟩ => show win0_4.index t (1 : Fin 2) * 128 + 1 * (y 1).val = (y 1).val; rw [e1]; omega

/-- The second weight matrix is staged whole at every point. -/
theorem whole_wr (c : Dev nD) (t : Fin cfg0.N) :
    (iblk0 V c 5 t : S128x128.Idx → EReal) = (V c main_arg4 : S128x128.Idx → EReal) := by
  obtain ⟨-, -, -, -, -, -, -, -, -, -, e0, e1, -⟩ := idx_facts t
  funext y
  unfold iblk0
  rw [View.read_apply]
  show V c main_arg4 _ = V c main_arg4 _
  congr 1
  funext a
  apply Fin.ext
  match a with
  | ⟨0, _⟩ => show win0_5.index t (0 : Fin 2) * 128 + 1 * (y 0).val = (y 0).val; rw [e0]; omega
  | ⟨1, _⟩ => show win0_5.index t (1 : Fin 2) * 128 + 1 * (y 1).val = (y 1).val; rw [e1]; omega

/-- What the output array holds when the launch ends, of the arrays the launch finds: the layer of them. -/
def out (c : Dev nD) : S100000x128.Idx → EReal :=
  layerOf hT (V c main_v17) (V c main_v7) (V c main_arg0) (V c main_arg2) (V c main_v18) (V c main_arg4)

/-- WHAT POINT `t` WRITES BACK is block `t` of the layer of the whole arrays. -/
theorem flushed_eq (c : Dev nD) (t : Fin cfg0.N) :
    (dat0 V c).flushed 6 t = ((cfg0.win 6).blk t).view.read (Elt Ideal) (out V c) := by
  show (cfg0.win 6).cut (grid0.coords t) ((dat0 V c).after 6 t) = _
  rw [after0_6]
  unfold out0_6
  rw [View.canon_unit_zero hz]
  simp only [View.ld_unit_zero (S := S10000x128) hz, View.ld_unit_zero (S := S10000x1) hz,
    View.ld_unit_zero (S := S128x128) hz, View.ld_unit_zero (S := S1x128) hz]
  rw [pay_eq, whole_wl V c t, whole_b V c t, whole_wr V c t]
  obtain ⟨-, -, -, -, -, -, -, -, -, -, -, -, e0, e1⟩ := idx_facts t
  funext j
  show layerOf hT (iblk0 V c 0 t) (iblk0 V c 1 t) (iblk0 V c 2 t) (V c main_arg2) (V c main_v18) (V c main_arg4) j
    = layerOf hT (V c main_v17) (V c main_v7) (V c main_arg0) (V c main_arg2) (V c main_v18) (V c main_arg4) (((cfg0.win 6).blk t).view.emb j)
  unfold layerOf layerRow
  refine meanLayer_block (R := 10000) _ _ _ _ _ _ _ _ _ _ _ t.val
    (fun y k h0 h1 => rows_agg V c t y k h0 h1) (fun y k h0 h1 => rows_cnt V c t y k h0 h1)
    (fun y k h0 h1 => rows_x V c t y k h0 h1) j _ ?_ ?_
  · show win0_6.index t (0 : Fin 2) * 10000 + 1 * (j 0).val = 10000 * t.val + (j 0).val
    rw [e0]; omega
  · show win0_6.index t (1 : Fin 2) * 128 + 1 * (j 1).val = (j 1).val
    rw [e1]; omega

/-- An index of the output array is in point `t`'s block iff each coordinate is in the block's range on its axis. -/
theorem mem_blk (t : Fin cfg0.N) (i : S100000x128.Idx) :
    i ∈ ((cfg0.win 6).blk t).view.set ↔ ∀ a : Fin 2, win0_6.index t a * S10000x128.size a ≤ (i a).val ∧ (i a).val < win0_6.index t a * S10000x128.size a + S10000x128.size a := by
  show i ∈ ((View.whole main_v19).slice (win0_6.rect t)).set ↔ _
  rw [View.set_slice_whole, Rect.mem_set_unit]
  exact Iff.rfl

/-- Row `r` of the output is written back by point `r / 10000`. -/
theorem cover (i : S100000x128.Idx) :
    ∃ t : Fin cfg0.N, (cfg0.win 6).flush t = true ∧ i ∈ ((cfg0.win 6).blk t).view.set := by
  have hN : cfg0.N = 10 := N_0
  have hi0 : (i 0).val < 100000 := (i 0).isLt
  have hi1 : (i 1).val < 128 := (i 1).isLt
  let t : Fin cfg0.N := ⟨(i 0).val / 10000, by rw [hN]; omega⟩
  obtain ⟨-, -, -, -, -, -, -, -, -, -, -, -, e0, e1⟩ := idx_facts t
  have ht : t.val = (i 0).val / 10000 := rfl
  refine ⟨t, flush0_6 t, ?_⟩
  rw [mem_blk]
  intro a
  match a with
  | ⟨0, _⟩ =>
    show win0_6.index t (0 : Fin 2) * 10000 ≤ (i 0).val ∧ (i 0).val < win0_6.index t (0 : Fin 2) * 10000 + 10000
    rw [e0, ht]; omega
  | ⟨1, _⟩ =>
    show win0_6.index t (1 : Fin 2) * 128 ≤ (i 1).val ∧ (i 1).val < win0_6.index t (1 : Fin 2) * 128 + 128
    rw [e1]; omega

/-- THE OUTPUT ARRAY when the launch ends is the layer of the arrays the launch found. -/
theorem final (c : Dev nD) : (dat0 V c).arrAt 6 cfg0.N = out V c :=
  (dat0 V c).arrAt_eq_of_cover 6 (out V c) (fun t _ => flushed_eq V c t) cover

end Cert.KernelIdeal.Layer0

end
-- ==== Proof.Layer1.lean ====
/-
  Launch 1 of the layer: what its output array holds when the launch ends.

  The launch walks the 100000 rows in ten blocks of 10000. At grid point `t` it stages rows `10000·t …` of the
  aggregate, of the count column and of the features, the two weight matrices and the bias row whole, and writes
  back rows `10000·t …` of the output. The body's one store is the layer of the staged blocks (`pay_eq`); a block's
  row `p` is the array's row `10000·t + p` (`rows_*`), and the layer treats every row alone, so what point `t`
  writes back is block `t` of the layer of the whole arrays (`flushed_eq`). The ten blocks cover the array
  (`cover`), hence the array ends holding the layer of the arrays the launch found (`final`).
-/
import proofs.«153698_j72773925863659_1_alg».proof.Proof.Gen.KernelIdeal.Frame
import proofs.«153698_j72773925863659_1_alg».proof.Proof.KernelDims
import Idealize.ShloMosaic.Lib.Pipeline.Value

set_option maxRecDepth 16384

noncomputable section

namespace Cert.KernelIdeal.Layer1

open Cert.KernelIdeal Cert.KernelIdeal.Gen Cert.KernelIdeal.Hand
open Idealize.ShloMosaic Idealize.ShloMosaic.TcCoe Idealize.SL.Sem Idealize.ShloMosaic.ValueIdx
open Cert.RowLayers Cert.MeanLayer Cert.Spec

/-- The evidence the body's transposition carries. -/
local notation "hT" => Facts₀.transposes_S128x128_p1_0_S128x128
open Idealize.ShloMosaic.Pipeline (Dat)

variable (V : (c : Dev nD) → (b : Ref sig .tc) → Buf (Elt Ideal) ((c : Thread nD τ).loc b))

/-- The body's stored value is the layer of the blocks it loaded: the count column floored at 1 and broadcast along
    the lanes, the two products into zero accumulators, the bias row broadcast down the rows, the maximum with 0. -/
theorem pay_eq (x0 : Vec Ideal S10000x128 .f32) (x1 : Vec Ideal S10000x1 .f32) (x3 : Vec Ideal S128x128 .f32)
    (x4 : Vec Ideal S1x128 .f32) (x2 : Vec Ideal S10000x128 .f32) (x5 : Vec Ideal S128x128 .f32) :
    k1_pay1 x0 x1 x3 x4 x2 x5 = layerOf hT x0 x1 x2 x3 x4 x5 := by
  unfold k1_pay1 layerOf layerRow
  simp only [shapeCast_self]
  exact device_meanLayer kdot_rows 0x3F800000#32 0x00000000#32 x0 x2 x1 _ _ x4 _ _

/-- The printed index maps over the grid: the row-tiled windows sit at block `(t, 0)`, the whole ones at `(0, 0)`. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- The aggregate's block at point `t` holds rows `10000·t …` of the aggregate. -/
theorem rows_agg (c : Dev nD) (t : Fin cfg1.N) (y : S10000x128.Idx) (k : S100000x128.Idx)
    (hk0 : (k 0).val = 10000 * t.val + (y 0).val) (hk1 : (k 1).val = (y 1).val) :
    (iblk1 V c 0 t : S10000x128.Idx → EReal) y = (V c main_v29 : S100000x128.Idx → EReal) k := by
  obtain ⟨e0, e1, -⟩ := idx_facts t
  unfold iblk1
  rw [View.read_apply]
  show V c main_v29 _ = V c main_v29 _
  congr 1
  funext a
  apply Fin.ext
  match a with
  | ⟨0, _⟩ => show win1_0.index t (0 : Fin 2) * 10000 + 1 * (y 0).val = (k 0).val; rw [e0, hk0]; omega
  | ⟨1, _⟩ => show win1_0.index t (1 : Fin 2) * 128 + 1 * (y 1).val = (k 1).val; rw [e1, hk1]; omega

/-- The count column's block at point `t` holds rows `10000·t …` of the count column. -/
theorem rows_cnt (c : Dev nD) (t : Fin cfg1.N) (y : S10000x1.Idx) (k : S100000x1.Idx)
    (hk0 : (k 0).val = 10000 * t.val + (y 0).val) (hk1 : (k 1).val = (y 1).val) :
    (iblk1 V c 1 t : S10000x1.Idx → EReal) y = (V c main_v7 : S100000x1.Idx → EReal) k := by
  obtain ⟨-, -, e0, e1, -⟩ := idx_facts t
  unfold iblk1
  rw [View.read_apply]
  show V c main_v7 _ = V c main_v7 _
  congr 1
  funext a
  apply Fin.ext
  match a with
  | ⟨0, _⟩ => show win1_1.index t (0 : Fin 2) * 10000 + 1 * (y 0).val = (k 0).val; rw [e0, hk0]; omega
  | ⟨1, _⟩ => show win1_1.index t (1 : Fin 2) * 1 + 1 * (y 1).val = (k 1).val; rw [e1, hk1]; omega

/-- The features' block at point `t` holds rows `10000·t …` of the features. -/
theorem rows_x (c : Dev nD) (t : Fin cfg1.N) (y : S10000x128.Idx) (k : S100000x128.Idx)
    (hk0 : (k 0).val = 10000 * t.val + (y 0).val) (hk1 : (k 1).val = (y 1).val) :
    (iblk1 V c 2 t : S10000x128.Idx → EReal) y = (V c main_v19 : S100000x128.Idx → EReal) k := by
  obtain ⟨-, -, -, -, e0, e1, -⟩ := idx_facts t
  unfold iblk1
  rw [View.read_apply]
  show V c main_v19 _ = V c main_v19 _
  congr 1
  funext a
  apply Fin.ext
  match a with
  | ⟨0, _⟩ => show win1_2.index t (0 : Fin 2) * 10000 + 1 * (y 0).val = (k 0).val; rw [e0, hk0]; omega
  | ⟨1, _⟩ => show win1_2.index t (1 : Fin 2) * 128 + 1 * (y 1).val = (k 1).val; rw [e1, hk1]; omega

/-- The first weight matrix is staged whole at every point. -/
theorem whole_wl (c : Dev nD) (t : Fin cfg1.N) :
    (iblk1 V c 3 t : S128x128.Idx → EReal) = (V c main_arg5 : S128x128.Idx → EReal) := by
  obtain ⟨-, -, -, -, -, -, e0, e1, -⟩ := idx_facts t
  funext y
  unfold iblk1
  rw [View.read_apply]
  show V c main_arg5 _ = V c main_arg5 _
  congr 1
  funext a
  apply Fin.ext
  match a with
  | ⟨0, _⟩ => show win1_3.index t (0 : Fin 2) * 128 + 1 * (y 0).val = (y 0).val; rw [e0]; omega
  | ⟨1, _⟩ => show win1_3.index t (1 : Fin 2) * 128 + 1 * (y 1).val = (y 1).val; rw [e1]; omega

/-- The bias row is staged whole at every point. -/
theorem whole_b (c : Dev nD) (t : Fin cfg1.N) :
    (iblk1 V c 4 t : S1x128.Idx → EReal) = (V c main_v30 : S1x128.Idx → EReal) := by
  obtain ⟨-, -, -, -, -, -, -, -, e0, e1, -⟩ := idx_facts t
  funext y
  unfold iblk1
  rw [View.read_apply]
  show V c main_v30 _ = V c main_v30 _
  congr 1
  funext a
  apply Fin.ext
  match a with
  | ⟨0, _⟩ => show win1_4.index t (0 : Fin 2) * 1 + 1 * (y 0).val = (y 0).val; rw [e0]; omega
  | ⟨1, _⟩ => show win1_4.index t (1 : Fin 2) * 128 + 1 * (y 1).val = (y 1).val; rw [e1]; omega

/-- The second weight matrix is staged whole at every point. -/
theorem whole_wr (c : Dev nD) (t : Fin cfg1.N) :
    (iblk1 V c 5 t : S128x128.Idx → EReal) = (V c main_arg7 : S128x128.Idx → EReal) := by
  obtain ⟨-, -, -, -, -, -, -, -, -, -, e0, e1, -⟩ := idx_facts t
  funext y
  unfold iblk1
  rw [View.read_apply]
  show V c main_arg7 _ = V c main_arg7 _
  congr 1
  funext a
  apply Fin.ext
  match a with
  | ⟨0, _⟩ => show win1_5.index t (0 : Fin 2) * 128 + 1 * (y 0).val = (y 0).val; rw [e0]; omega
  | ⟨1, _⟩ => show win1_5.index t (1 : Fin 2) * 128 + 1 * (y 1).val = (y 1).val; rw [e1]; omega

/-- What the output array holds when the launch ends, of the arrays the launch finds: the layer of them. -/
def out (c : Dev nD) : S100000x128.Idx → EReal :=
  layerOf hT (V c main_v29) (V c main_v7) (V c main_v19) (V c main_arg5) (V c main_v30) (V c main_arg7)

/-- WHAT POINT `t` WRITES BACK is block `t` of the layer of the whole arrays. -/
theorem flushed_eq (c : Dev nD) (t : Fin cfg1.N) :
    (dat1 V c).flushed 6 t = ((cfg1.win 6).blk t).view.read (Elt Ideal) (out V c) := by
  show (cfg1.win 6).cut (grid1.coords t) ((dat1 V c).after 6 t) = _
  rw [after1_6]
  unfold out1_6
  rw [View.canon_unit_zero hz]
  simp only [View.ld_unit_zero (S := S10000x128) hz, View.ld_unit_zero (S := S10000x1) hz,
    View.ld_unit_zero (S := S128x128) hz, View.ld_unit_zero (S := S1x128) hz]
  rw [pay_eq, whole_wl V c t, whole_b V c t, whole_wr V c t]
  obtain ⟨-, -, -, -, -, -, -, -, -, -, -, -, e0, e1⟩ := idx_facts t
  funext j
  show layerOf hT (iblk1 V c 0 t) (iblk1 V c 1 t) (iblk1 V c 2 t) (V c main_arg5) (V c main_v30) (V c main_arg7) j
    = layerOf hT (V c main_v29) (V c main_v7) (V c main_v19) (V c main_arg5) (V c main_v30) (V c main_arg7) (((cfg1.win 6).blk t).view.emb j)
  unfold layerOf layerRow
  refine meanLayer_block (R := 10000) _ _ _ _ _ _ _ _ _ _ _ t.val
    (fun y k h0 h1 => rows_agg V c t y k h0 h1) (fun y k h0 h1 => rows_cnt V c t y k h0 h1)
    (fun y k h0 h1 => rows_x V c t y k h0 h1) j _ ?_ ?_
  · show win1_6.index t (0 : Fin 2) * 10000 + 1 * (j 0).val = 10000 * t.val + (j 0).val
    rw [e0]; omega
  · show win1_6.index t (1 : Fin 2) * 128 + 1 * (j 1).val = (j 1).val
    rw [e1]; omega

/-- An index of the output array is in point `t`'s block iff each coordinate is in the block's range on its axis. -/
theorem mem_blk (t : Fin cfg1.N) (i : S100000x128.Idx) :
    i ∈ ((cfg1.win 6).blk t).view.set ↔ ∀ a : Fin 2, win1_6.index t a * S10000x128.size a ≤ (i a).val ∧ (i a).val < win1_6.index t a * S10000x128.size a + S10000x128.size a := by
  show i ∈ ((View.whole main_v31).slice (win1_6.rect t)).set ↔ _
  rw [View.set_slice_whole, Rect.mem_set_unit]
  exact Iff.rfl

/-- Row `r` of the output is written back by point `r / 10000`. -/
theorem cover (i : S100000x128.Idx) :
    ∃ t : Fin cfg1.N, (cfg1.win 6).flush t = true ∧ i ∈ ((cfg1.win 6).blk t).view.set := by
  have hN : cfg1.N = 10 := N_1
  have hi0 : (i 0).val < 100000 := (i 0).isLt
  have hi1 : (i 1).val < 128 := (i 1).isLt
  let t : Fin cfg1.N := ⟨(i 0).val / 10000, by rw [hN]; omega⟩
  obtain ⟨-, -, -, -, -, -, -, -, -, -, -, -, e0, e1⟩ := idx_facts t
  have ht : t.val = (i 0).val / 10000 := rfl
  refine ⟨t, flush1_6 t, ?_⟩
  rw [mem_blk]
  intro a
  match a with
  | ⟨0, _⟩ =>
    show win1_6.index t (0 : Fin 2) * 10000 ≤ (i 0).val ∧ (i 0).val < win1_6.index t (0 : Fin 2) * 10000 + 10000
    rw [e0, ht]; omega
  | ⟨1, _⟩ =>
    show win1_6.index t (1 : Fin 2) * 128 ≤ (i 1).val ∧ (i 1).val < win1_6.index t (1 : Fin 2) * 128 + 128
    rw [e1]; omega

/-- THE OUTPUT ARRAY when the launch ends is the layer of the arrays the launch found. -/
theorem final (c : Dev nD) : (dat1 V c).arrAt 6 cfg1.N = out V c :=
  (dat1 V c).arrAt_eq_of_cover 6 (out V c) (fun t _ => flushed_eq V c t) cover

end Cert.KernelIdeal.Layer1

end
-- ==== Proof.Layer2.lean ====
/-
  Launch 2 of the layer: what its output array holds when the launch ends.

  The launch walks the 100000 rows in ten blocks of 10000. At grid point `t` it stages rows `10000·t …` of the
  aggregate, of the count column and of the features, the two weight matrices and the bias row whole, and writes
  back rows `10000·t …` of the output. The body's one store is the layer of the staged blocks (`pay_eq`); a block's
  row `p` is the array's row `10000·t + p` (`rows_*`), and the layer treats every row alone, so what point `t`
  writes back is block `t` of the layer of the whole arrays (`flushed_eq`). The ten blocks cover the array
  (`cover`), hence the array ends holding the layer of the arrays the launch found (`final`).
-/
import proofs.«153698_j72773925863659_1_alg».proof.Proof.Gen.KernelIdeal.Frame
import proofs.«153698_j72773925863659_1_alg».proof.Proof.KernelDims
import Idealize.ShloMosaic.Lib.Pipeline.Value

set_option maxRecDepth 16384

noncomputable section

namespace Cert.KernelIdeal.Layer2

open Cert.KernelIdeal Cert.KernelIdeal.Gen Cert.KernelIdeal.Hand
open Idealize.ShloMosaic Idealize.ShloMosaic.TcCoe Idealize.SL.Sem Idealize.ShloMosaic.ValueIdx
open Cert.RowLayers Cert.MeanLayer Cert.Spec

/-- The evidence the body's transposition carries. -/
local notation "hT" => Facts₀.transposes_S128x128_p1_0_S128x128
open Idealize.ShloMosaic.Pipeline (Dat)

variable (V : (c : Dev nD) → (b : Ref sig .tc) → Buf (Elt Ideal) ((c : Thread nD τ).loc b))

/-- The body's stored value is the layer of the blocks it loaded: the count column floored at 1 and broadcast along
    the lanes, the two products into zero accumulators, the bias row broadcast down the rows, the maximum with 0. -/
theorem pay_eq (x0 : Vec Ideal S10000x128 .f32) (x1 : Vec Ideal S10000x1 .f32) (x3 : Vec Ideal S128x128 .f32)
    (x4 : Vec Ideal S1x128 .f32) (x2 : Vec Ideal S10000x128 .f32) (x5 : Vec Ideal S128x128 .f32) :
    k2_pay1 x0 x1 x3 x4 x2 x5 = layerOf hT x0 x1 x2 x3 x4 x5 := by
  unfold k2_pay1 layerOf layerRow
  simp only [shapeCast_self]
  exact device_meanLayer kdot_rows 0x3F800000#32 0x00000000#32 x0 x2 x1 _ _ x4 _ _

/-- The printed index maps over the grid: the row-tiled windows sit at block `(t, 0)`, the whole ones at `(0, 0)`. -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = t.val ∧ win2_6.index t (1 : Fin 2) = 0 :=
  (by decide +kernel : ∀ t : Fin grid2.N, _)

/-- The aggregate's block at point `t` holds rows `10000·t …` of the aggregate. -/
theorem rows_agg (c : Dev nD) (t : Fin cfg2.N) (y : S10000x128.Idx) (k : S100000x128.Idx)
    (hk0 : (k 0).val = 10000 * t.val + (y 0).val) (hk1 : (k 1).val = (y 1).val) :
    (iblk2 V c 0 t : S10000x128.Idx → EReal) y = (V c main_v41 : S100000x128.Idx → EReal) k := by
  obtain ⟨e0, e1, -⟩ := idx_facts t
  unfold iblk2
  rw [View.read_apply]
  show V c main_v41 _ = V c main_v41 _
  congr 1
  funext a
  apply Fin.ext
  match a with
  | ⟨0, _⟩ => show win2_0.index t (0 : Fin 2) * 10000 + 1 * (y 0).val = (k 0).val; rw [e0, hk0]; omega
  | ⟨1, _⟩ => show win2_0.index t (1 : Fin 2) * 128 + 1 * (y 1).val = (k 1).val; rw [e1, hk1]; omega

/-- The count column's block at point `t` holds rows `10000·t …` of the count column. -/
theorem rows_cnt (c : Dev nD) (t : Fin cfg2.N) (y : S10000x1.Idx) (k : S100000x1.Idx)
    (hk0 : (k 0).val = 10000 * t.val + (y 0).val) (hk1 : (k 1).val = (y 1).val) :
    (iblk2 V c 1 t : S10000x1.Idx → EReal) y = (V c main_v7 : S100000x1.Idx → EReal) k := by
  obtain ⟨-, -, e0, e1, -⟩ := idx_facts t
  unfold iblk2
  rw [View.read_apply]
  show V c main_v7 _ = V c main_v7 _
  congr 1
  funext a
  apply Fin.ext
  match a with
  | ⟨0, _⟩ => show win2_1.index t (0 : Fin 2) * 10000 + 1 * (y 0).val = (k 0).val; rw [e0, hk0]; omega
  | ⟨1, _⟩ => show win2_1.index t (1 : Fin 2) * 1 + 1 * (y 1).val = (k 1).val; rw [e1, hk1]; omega

/-- The features' block at point `t` holds rows `10000·t …` of the features. -/
theorem rows_x (c : Dev nD) (t : Fin cfg2.N) (y : S10000x128.Idx) (k : S100000x128.Idx)
    (hk0 : (k 0).val = 10000 * t.val + (y 0).val) (hk1 : (k 1).val = (y 1).val) :
    (iblk2 V c 2 t : S10000x128.Idx → EReal) y = (V c main_v31 : S100000x128.Idx → EReal) k := by
  obtain ⟨-, -, -, -, e0, e1, -⟩ := idx_facts t
  unfold iblk2
  rw [View.read_apply]
  show V c main_v31 _ = V c main_v31 _
  congr 1
  funext a
  apply Fin.ext
  match a with
  | ⟨0, _⟩ => show win2_2.index t (0 : Fin 2) * 10000 + 1 * (y 0).val = (k 0).val; rw [e0, hk0]; omega
  | ⟨1, _⟩ => show win2_2.index t (1 : Fin 2) * 128 + 1 * (y 1).val = (k 1).val; rw [e1, hk1]; omega

/-- The first weight matrix is staged whole at every point. -/
theorem whole_wl (c : Dev nD) (t : Fin cfg2.N) :
    (iblk2 V c 3 t : S128x128.Idx → EReal) = (V c main_arg8 : S128x128.Idx → EReal) := by
  obtain ⟨-, -, -, -, -, -, e0, e1, -⟩ := idx_facts t
  funext y
  unfold iblk2
  rw [View.read_apply]
  show V c main_arg8 _ = V c main_arg8 _
  congr 1
  funext a
  apply Fin.ext
  match a with
  | ⟨0, _⟩ => show win2_3.index t (0 : Fin 2) * 128 + 1 * (y 0).val = (y 0).val; rw [e0]; omega
  | ⟨1, _⟩ => show win2_3.index t (1 : Fin 2) * 128 + 1 * (y 1).val = (y 1).val; rw [e1]; omega

/-- The bias row is staged whole at every point. -/
theorem whole_b (c : Dev nD) (t : Fin cfg2.N) :
    (iblk2 V c 4 t : S1x128.Idx → EReal) = (V c main_v42 : S1x128.Idx → EReal) := by
  obtain ⟨-, -, -, -, -, -, -, -, e0, e1, -⟩ := idx_facts t
  funext y
  unfold iblk2
  rw [View.read_apply]
  show V c main_v42 _ = V c main_v42 _
  congr 1
  funext a
  apply Fin.ext
  match a with
  | ⟨0, _⟩ => show win2_4.index t (0 : Fin 2) * 1 + 1 * (y 0).val = (y 0).val; rw [e0]; omega
  | ⟨1, _⟩ => show win2_4.index t (1 : Fin 2) * 128 + 1 * (y 1).val = (y 1).val; rw [e1]; omega

/-- The second weight matrix is staged whole at every point. -/
theorem whole_wr (c : Dev nD) (t : Fin cfg2.N) :
    (iblk2 V c 5 t : S128x128.Idx → EReal) = (V c main_arg10 : S128x128.Idx → EReal) := by
  obtain ⟨-, -, -, -, -, -, -, -, -, -, e0, e1, -⟩ := idx_facts t
  funext y
  unfold iblk2
  rw [View.read_apply]
  show V c main_arg10 _ = V c main_arg10 _
  congr 1
  funext a
  apply Fin.ext
  match a with
  | ⟨0, _⟩ => show win2_5.index t (0 : Fin 2) * 128 + 1 * (y 0).val = (y 0).val; rw [e0]; omega
  | ⟨1, _⟩ => show win2_5.index t (1 : Fin 2) * 128 + 1 * (y 1).val = (y 1).val; rw [e1]; omega

/-- What the output array holds when the launch ends, of the arrays the launch finds: the layer of them. -/
def out (c : Dev nD) : S100000x128.Idx → EReal :=
  layerOf hT (V c main_v41) (V c main_v7) (V c main_v31) (V c main_arg8) (V c main_v42) (V c main_arg10)

/-- WHAT POINT `t` WRITES BACK is block `t` of the layer of the whole arrays. -/
theorem flushed_eq (c : Dev nD) (t : Fin cfg2.N) :
    (dat2 V c).flushed 6 t = ((cfg2.win 6).blk t).view.read (Elt Ideal) (out V c) := by
  show (cfg2.win 6).cut (grid2.coords t) ((dat2 V c).after 6 t) = _
  rw [after2_6]
  unfold out2_6
  rw [View.canon_unit_zero hz]
  simp only [View.ld_unit_zero (S := S10000x128) hz, View.ld_unit_zero (S := S10000x1) hz,
    View.ld_unit_zero (S := S128x128) hz, View.ld_unit_zero (S := S1x128) hz]
  rw [pay_eq, whole_wl V c t, whole_b V c t, whole_wr V c t]
  obtain ⟨-, -, -, -, -, -, -, -, -, -, -, -, e0, e1⟩ := idx_facts t
  funext j
  show layerOf hT (iblk2 V c 0 t) (iblk2 V c 1 t) (iblk2 V c 2 t) (V c main_arg8) (V c main_v42) (V c main_arg10) j
    = layerOf hT (V c main_v41) (V c main_v7) (V c main_v31) (V c main_arg8) (V c main_v42) (V c main_arg10) (((cfg2.win 6).blk t).view.emb j)
  unfold layerOf layerRow
  refine meanLayer_block (R := 10000) _ _ _ _ _ _ _ _ _ _ _ t.val
    (fun y k h0 h1 => rows_agg V c t y k h0 h1) (fun y k h0 h1 => rows_cnt V c t y k h0 h1)
    (fun y k h0 h1 => rows_x V c t y k h0 h1) j _ ?_ ?_
  · show win2_6.index t (0 : Fin 2) * 10000 + 1 * (j 0).val = 10000 * t.val + (j 0).val
    rw [e0]; omega
  · show win2_6.index t (1 : Fin 2) * 128 + 1 * (j 1).val = (j 1).val
    rw [e1]; omega

/-- An index of the output array is in point `t`'s block iff each coordinate is in the block's range on its axis. -/
theorem mem_blk (t : Fin cfg2.N) (i : S100000x128.Idx) :
    i ∈ ((cfg2.win 6).blk t).view.set ↔ ∀ a : Fin 2, win2_6.index t a * S10000x128.size a ≤ (i a).val ∧ (i a).val < win2_6.index t a * S10000x128.size a + S10000x128.size a := by
  show i ∈ ((View.whole main_v43).slice (win2_6.rect t)).set ↔ _
  rw [View.set_slice_whole, Rect.mem_set_unit]
  exact Iff.rfl

/-- Row `r` of the output is written back by point `r / 10000`. -/
theorem cover (i : S100000x128.Idx) :
    ∃ t : Fin cfg2.N, (cfg2.win 6).flush t = true ∧ i ∈ ((cfg2.win 6).blk t).view.set := by
  have hN : cfg2.N = 10 := N_2
  have hi0 : (i 0).val < 100000 := (i 0).isLt
  have hi1 : (i 1).val < 128 := (i 1).isLt
  let t : Fin cfg2.N := ⟨(i 0).val / 10000, by rw [hN]; omega⟩
  obtain ⟨-, -, -, -, -, -, -, -, -, -, -, -, e0, e1⟩ := idx_facts t
  have ht : t.val = (i 0).val / 10000 := rfl
  refine ⟨t, flush2_6 t, ?_⟩
  rw [mem_blk]
  intro a
  match a with
  | ⟨0, _⟩ =>
    show win2_6.index t (0 : Fin 2) * 10000 ≤ (i 0).val ∧ (i 0).val < win2_6.index t (0 : Fin 2) * 10000 + 10000
    rw [e0, ht]; omega
  | ⟨1, _⟩ =>
    show win2_6.index t (1 : Fin 2) * 128 ≤ (i 1).val ∧ (i 1).val < win2_6.index t (1 : Fin 2) * 128 + 128
    rw [e1]; omega

/-- THE OUTPUT ARRAY when the launch ends is the layer of the arrays the launch found. -/
theorem final (c : Dev nD) : (dat2 V c).arrAt 6 cfg2.N = out V c :=
  (dat2 V c).arrAt_eq_of_cover 6 (out V c) (fun t _ => flushed_eq V c t) cover

end Cert.KernelIdeal.Layer2

end
-- ==== Proof.KernelValue.lean ====
/-
  The kernel program's result as three applications of one layer.

  Between its launches the program runs the same host operations as the reference: rows of the current features are
  gathered at the edges' sources (a negative source shifted by the number of nodes) and scatter-added at the edges'
  targets into a zero array (`aggK`); the neighbour counts, ones scatter-added at the targets into a zero column
  (`cntK`), are computed once and reused; each bias vector is viewed as a `[1, 128]` row. The buffer contents at the
  boundaries between stretches and launches are followed from the launch memory: a stretch rewrites the buffers its
  operations write, a launch leaves in its output array the layer of the arrays it found (the launch modules) and every
  other buffer as it was. Read at the result buffer, the last boundary holds the layer applied three times (`result_eq`),
  which with the run's statement gives `run`.
-/
import proofs.«153698_j72773925863659_1_alg».proof.Proof.KernelRun
import proofs.«153698_j72773925863659_1_alg».proof.Proof.Layer0
import proofs.«153698_j72773925863659_1_alg».proof.Proof.Layer1
import proofs.«153698_j72773925863659_1_alg».proof.Proof.Layer2
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx Idealize.ShloMosaic.StableHlo
open Cert.RowLayers Cert.MeanLayer Cert.Spec

/-- The evidence the body's transposition carries. -/
local notation "hT" => Facts₀.transposes_S128x128_p1_0_S128x128

section Terms
variable {F : FTy → Type} [FloatOps F]

/-- An edge list: the `[2, 1600000]` array of source and target node numbers. -/
abbrev Edges (F : FTy → Type) : Type := (⟨S2x1600000, .i32⟩ : BufTy).Contents (Elt F)
/-- A `[100000, 128]` feature array. -/
abbrev Feat (F : FTy → Type) : Type := (⟨S100000x128, .f32⟩ : BufTy).Contents (Elt F)
/-- A list of node numbers, one per edge. -/
abbrev Nodes (F : FTy → Type) : Type := (⟨S1600000, .i32⟩ : BufTy).Contents (Elt F)

/-- The source node of every edge. -/
def srcK (ei : Edges F) : Nodes F :=
  shapeCast _ (extractStridedSlice S1x1600000 ![0, 0] ei slices_S2x1600000_S1x1600000_0_0) shapeCasts_S1x1600000_S1600000

/-- The target node of every edge. -/
def dstK (ei : Edges F) : Nodes F :=
  shapeCast _ (extractStridedSlice S1x1600000 ![1, 0] ei slices_S2x1600000_S1x1600000_1_0) shapeCasts_S1x1600000_S1600000

/-- The rows of `h` at the sources `s` (a negative source shifted by the number of nodes), summed at the targets `d`. -/
def aggOf (h : Feat F) (s d : Nodes F) : Feat F :=
  Host.scatterAdd scatter_S100000x128_S1600000x1_S1600000x128_1_0_0_1 (broadcastInDim S100000x128 ![] bcast_S_S100000x128 (constant S_ .f32 0x00000000#32)) (broadcastInDim S1600000x1 ![0] bcast_S1600000_S1600000x1_0 d) (Host.gather gather_S100000x128_S1600000x1_S1600000x128_1_0_n_n_0_1_1128 h (broadcastInDim S1600000x1 ![0] bcast_S1600000_S1600000x1_0 (select (cmpi .slt s (broadcastInDim S1600000 ![] bcast_S_S1600000 (constantI S_ 32 0#32))) (addi s (broadcastInDim S1600000 ![] bcast_S_S1600000 (constantI S_ 32 100000#32))) s)))

/-- The rows of `h` gathered along the edge list's sources and summed at its targets. -/
def aggK (h : Feat F) (ei : Edges F) : Feat F := aggOf h (srcK ei) (dstK ei)

/-- The number of edges arriving at every node, as a column. -/
def cntK (ei : Edges F) : (⟨S100000x1, .f32⟩ : BufTy).Contents (Elt F) :=
  Host.scatterAdd scatter_S100000x1_S1600000x1_S1600000x1_1_0_0_1 (broadcastInDim S100000x1 ![] bcast_S_S100000x1 (constant S_ .f32 0x00000000#32)) (broadcastInDim S1600000x1 ![0] bcast_S1600000_S1600000x1_0 (dstK ei)) (broadcastInDim S1600000x1 ![] bcast_S_S1600000x1 (constant S_ .f32 0x3F800000#32))

/-- A bias vector viewed as one row. -/
def biasRow (bl : (⟨S128, .f32⟩ : BufTy).Contents (Elt F)) : (⟨S1x128, .f32⟩ : BufTy).Contents (Elt F) :=
  shapeCast _ bl shapeCasts_S128_S1x128

end Terms

/-- One layer of the kernel program: the launch's function of the aggregate, the counts, the features, the weights and
    the bias row. -/
def layerK (h : Feat Ideal) (ei : Edges Ideal) (wl : (⟨S128x128, .f32⟩ : BufTy).Contents (Elt Ideal))
    (bl : (⟨S128, .f32⟩ : BufTy).Contents (Elt Ideal)) (wr : (⟨S128x128, .f32⟩ : BufTy).Contents (Elt Ideal)) : Feat Ideal :=
  layerOf hT (aggK (F := Ideal) h ei) (cntK (F := Ideal) ei) h wl (biasRow (F := Ideal) bl) wr

/-- Equal arrays give equal layers. -/
theorem layerOf_congr {agg agg' : A2 100000 128} {cnt cnt' : A2 100000 1} {x x' : A2 100000 128} {wl wl' : A2 128 128}
    {b b' : A2 1 128} {wr wr' : A2 128 128} (h1 : agg = agg') (h2 : cnt = cnt') (h3 : x = x') (h4 : wl = wl') (h5 : b = b')
    (h6 : wr = wr') : layerOf hT agg cnt x wl b wr = layerOf hT agg' cnt' x' wl' b' wr' := by
  subst h1 h2 h3 h4 h5 h6; rfl

variable (m : (ℓ : Loc nD τ sig) → Buf (Elt Ideal) ℓ) (ρ : Dev nD → PrngReg) (c : Dev nD)

/-- The features after the first, the second and the third layer. -/
def feat1 : Feat Ideal := layerK (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
def feat2 : Feat Ideal := layerK (feat1 m c) (m ((c.tc : Thread nD τ).loc main_arg1)) (m ((c.tc : Thread nD τ).loc main_arg5)) (m ((c.tc : Thread nD τ).loc main_arg6)) (m ((c.tc : Thread nD τ).loc main_arg7))
def feat3 : Feat Ideal := layerK (feat2 m c) (m ((c.tc : Thread nD τ).loc main_arg1)) (m ((c.tc : Thread nD τ).loc main_arg8)) (m ((c.tc : Thread nD τ).loc main_arg9)) (m ((c.tc : Thread nD τ).loc main_arg10))

/-! ## After the first stretch of host operations (the first launch's entry) -/

theorem W1_v1 : W1 m ρ c (Proc.devRef .tc main_v1) = srcK (F := Ideal) (m ((c.tc : Thread nD τ).loc main_arg1)) := by
  dsimp only [W1, hostOps0]; after_results; rfl

theorem W1_v3 : W1 m ρ c (Proc.devRef .tc main_v3) = dstK (F := Ideal) (m ((c.tc : Thread nD τ).loc main_arg1)) := by
  dsimp only [W1, hostOps0]; after_results; rfl

theorem W1_v7 : W1 m ρ c (Proc.devRef .tc main_v7) = cntK (F := Ideal) (m ((c.tc : Thread nD τ).loc main_arg1)) := by
  dsimp only [W1, hostOps0]; after_results; rfl

theorem W1_v17 : W1 m ρ c (Proc.devRef .tc main_v17) = aggK (F := Ideal) (m ((c.tc : Thread nD τ).loc main_arg0)) (m ((c.tc : Thread nD τ).loc main_arg1)) := by
  dsimp only [W1, hostOps0]; after_results_simp; rfl

theorem W1_v18 : W1 m ρ c (Proc.devRef .tc main_v18) = biasRow (F := Ideal) (m ((c.tc : Thread nD τ).loc main_arg3)) := by
  dsimp only [W1, hostOps0]; after_results; rfl

theorem W1_arg0 : W1 m ρ c (Proc.devRef .tc main_arg0) = (m ((c.tc : Thread nD τ).loc main_arg0)) := by
  dsimp only [W1, hostOps0]; after_results

theorem W1_arg2 : W1 m ρ c (Proc.devRef .tc main_arg2) = (m ((c.tc : Thread nD τ).loc main_arg2)) := by
  dsimp only [W1, hostOps0]; after_results

theorem W1_arg4 : W1 m ρ c (Proc.devRef .tc main_arg4) = (m ((c.tc : Thread nD τ).loc main_arg4)) := by
  dsimp only [W1, hostOps0]; after_results

theorem W1_arg5 : W1 m ρ c (Proc.devRef .tc main_arg5) = (m ((c.tc : Thread nD τ).loc main_arg5)) := by
  dsimp only [W1, hostOps0]; after_results

theorem W1_arg6 : W1 m ρ c (Proc.devRef .tc main_arg6) = (m ((c.tc : Thread nD τ).loc main_arg6)) := by
  dsimp only [W1, hostOps0]; after_results

theorem W1_arg7 : W1 m ρ c (Proc.devRef .tc main_arg7) = (m ((c.tc : Thread nD τ).loc main_arg7)) := by
  dsimp only [W1, hostOps0]; after_results

theorem W1_arg8 : W1 m ρ c (Proc.devRef .tc main_arg8) = (m ((c.tc : Thread nD τ).loc main_arg8)) := by
  dsimp only [W1, hostOps0]; after_results

theorem W1_arg9 : W1 m ρ c (Proc.devRef .tc main_arg9) = (m ((c.tc : Thread nD τ).loc main_arg9)) := by
  dsimp only [W1, hostOps0]; after_results

theorem W1_arg10 : W1 m ρ c (Proc.devRef .tc main_arg10) = (m ((c.tc : Thread nD τ).loc main_arg10)) := by
  dsimp only [W1, hostOps0]; after_results

/-! ## After the first launch: its output array holds the first layer; every other buffer is as it was -/

theorem W2_v19 : W2 m ρ c (Proc.devRef .tc main_v19) = feat1 m c :=
  (W2_arr m ρ c 6).trans ((Layer0.final (V1 m ρ) c).trans
    (layerOf_congr (W1_v17 m ρ c) (W1_v7 m ρ c) (W1_arg0 m ρ c) (W1_arg2 m ρ c) (W1_v18 m ρ c) (W1_arg4 m ρ c)))

theorem W2_v1 : W2 m ρ c (Proc.devRef .tc main_v1) = srcK (F := Ideal) (m ((c.tc : Thread nD τ).loc main_arg1)) :=
  (W2_of_ne m ρ c main_v1 (by decide)).trans (W1_v1 m ρ c)

theorem W2_v3 : W2 m ρ c (Proc.devRef .tc main_v3) = dstK (F := Ideal) (m ((c.tc : Thread nD τ).loc main_arg1)) :=
  (W2_of_ne m ρ c main_v3 (by decide)).trans (W1_v3 m ρ c)

/-- The count column is an input of the launch: staged, never written back. -/
theorem W2_v7 : W2 m ρ c (Proc.devRef .tc main_v7) = cntK (F := Ideal) (m ((c.tc : Thread nD τ).loc main_arg1)) :=
  (W2_arr m ρ c 1).trans (((dat0 (V1 m ρ) c).arrAt_in 1 rfl _).trans ((A_eq0 (V1 m ρ) c 1).trans (W1_v7 m ρ c)))

theorem W2_arg5 : W2 m ρ c (Proc.devRef .tc main_arg5) = (m ((c.tc : Thread nD τ).loc main_arg5)) :=
  (W2_of_ne m ρ c main_arg5 (by decide)).trans (W1_arg5 m ρ c)

theorem W2_arg6 : W2 m ρ c (Proc.devRef .tc main_arg6) = (m ((c.tc : Thread nD τ).loc main_arg6)) :=
  (W2_of_ne m ρ c main_arg6 (by decide)).trans (W1_arg6 m ρ c)

theorem W2_arg7 : W2 m ρ c (Proc.devRef .tc main_arg7) = (m ((c.tc : Thread nD τ).loc main_arg7)) :=
  (W2_of_ne m ρ c main_arg7 (by decide)).trans (W1_arg7 m ρ c)

theorem W2_arg8 : W2 m ρ c (Proc.devRef .tc main_arg8) = (m ((c.tc : Thread nD τ).loc main_arg8)) :=
  (W2_of_ne m ρ c main_arg8 (by decide)).trans (W1_arg8 m ρ c)

theorem W2_arg9 : W2 m ρ c (Proc.devRef .tc main_arg9) = (m ((c.tc : Thread nD τ).loc main_arg9)) :=
  (W2_of_ne m ρ c main_arg9 (by decide)).trans (W1_arg9 m ρ c)

theorem W2_arg10 : W2 m ρ c (Proc.devRef .tc main_arg10) = (m ((c.tc : Thread nD τ).loc main_arg10)) :=
  (W2_of_ne m ρ c main_arg10 (by decide)).trans (W1_arg10 m ρ c)

/-! ## After the second stretch of host operations (the second launch's entry) -/

theorem W3_v29 : W3 m ρ c (Proc.devRef .tc main_v29) = aggK (F := Ideal) (feat1 m c) (m ((c.tc : Thread nD τ).loc main_arg1)) := by
  dsimp only [W3, hostOps1]; after_results
  rw [W2_v3 m ρ c, W2_v1 m ρ c, W2_v19 m ρ c]; rfl

theorem W3_v30 : W3 m ρ c (Proc.devRef .tc main_v30) = biasRow (F := Ideal) (m ((c.tc : Thread nD τ).loc main_arg6)) := by
  dsimp only [W3, hostOps1]; after_results
  rw [W2_arg6 m ρ c]; rfl

theorem W3_v19 : W3 m ρ c (Proc.devRef .tc main_v19) = feat1 m c := by
  dsimp only [W3, hostOps1]; after_results
  exact W2_v19 m ρ c

theorem W3_v1 : W3 m ρ c (Proc.devRef .tc main_v1) = srcK (F := Ideal) (m ((c.tc : Thread nD τ).loc main_arg1)) := by
  dsimp only [W3, hostOps1]; after_results
  exact W2_v1 m ρ c

theorem W3_v3 : W3 m ρ c (Proc.devRef .tc main_v3) = dstK (F := Ideal) (m ((c.tc : Thread nD τ).loc main_arg1)) := by
  dsimp only [W3, hostOps1]; after_results
  exact W2_v3 m ρ c

theorem W3_v7 : W3 m ρ c (Proc.devRef .tc main_v7) = cntK (F := Ideal) (m ((c.tc : Thread nD τ).loc main_arg1)) := by
  dsimp only [W3, hostOps1]; after_results
  exact W2_v7 m ρ c

theorem W3_arg5 : W3 m ρ c (Proc.devRef .tc main_arg5) = (m ((c.tc : Thread nD τ).loc main_arg5)) := by
  dsimp only [W3, hostOps1]; after_results
  exact W2_arg5 m ρ c

theorem W3_arg7 : W3 m ρ c (Proc.devRef .tc main_arg7) = (m ((c.tc : Thread nD τ).loc main_arg7)) := by
  dsimp only [W3, hostOps1]; after_results
  exact W2_arg7 m ρ c

theorem W3_arg8 : W3 m ρ c (Proc.devRef .tc main_arg8) = (m ((c.tc : Thread nD τ).loc main_arg8)) := by
  dsimp only [W3, hostOps1]; after_results
  exact W2_arg8 m ρ c

theorem W3_arg9 : W3 m ρ c (Proc.devRef .tc main_arg9) = (m ((c.tc : Thread nD τ).loc main_arg9)) := by
  dsimp only [W3, hostOps1]; after_results
  exact W2_arg9 m ρ c

theorem W3_arg10 : W3 m ρ c (Proc.devRef .tc main_arg10) = (m ((c.tc : Thread nD τ).loc main_arg10)) := by
  dsimp only [W3, hostOps1]; after_results
  exact W2_arg10 m ρ c

/-! ## After the second launch -/

theorem W4_v31 : W4 m ρ c (Proc.devRef .tc main_v31) = feat2 m c :=
  (W4_arr m ρ c 6).trans ((Layer1.final (V3 m ρ) c).trans
    (layerOf_congr (W3_v29 m ρ c) (W3_v7 m ρ c) (W3_v19 m ρ c) (W3_arg5 m ρ c) (W3_v30 m ρ c) (W3_arg7 m ρ c)))

theorem W4_v1 : W4 m ρ c (Proc.devRef .tc main_v1) = srcK (F := Ideal) (m ((c.tc : Thread nD τ).loc main_arg1)) :=
  (W4_of_ne m ρ c main_v1 (by decide)).trans (W3_v1 m ρ c)

theorem W4_v3 : W4 m ρ c (Proc.devRef .tc main_v3) = dstK (F := Ideal) (m ((c.tc : Thread nD τ).loc main_arg1)) :=
  (W4_of_ne m ρ c main_v3 (by decide)).trans (W3_v3 m ρ c)

/-- The count column is an input of the launch: staged, never written back. -/
theorem W4_v7 : W4 m ρ c (Proc.devRef .tc main_v7) = cntK (F := Ideal) (m ((c.tc : Thread nD τ).loc main_arg1)) :=
  (W4_arr m ρ c 1).trans (((dat1 (V3 m ρ) c).arrAt_in 1 rfl _).trans ((A_eq1 (V3 m ρ) c 1).trans (W3_v7 m ρ c)))

theorem W4_arg8 : W4 m ρ c (Proc.devRef .tc main_arg8) = (m ((c.tc : Thread nD τ).loc main_arg8)) :=
  (W4_of_ne m ρ c main_arg8 (by decide)).trans (W3_arg8 m ρ c)

theorem W4_arg9 : W4 m ρ c (Proc.devRef .tc main_arg9) = (m ((c.tc : Thread nD τ).loc main_arg9)) :=
  (W4_of_ne m ρ c main_arg9 (by decide)).trans (W3_arg9 m ρ c)

theorem W4_arg10 : W4 m ρ c (Proc.devRef .tc main_arg10) = (m ((c.tc : Thread nD τ).loc main_arg10)) :=
  (W4_of_ne m ρ c main_arg10 (by decide)).trans (W3_arg10 m ρ c)

/-! ## After the third stretch of host operations (the third launch's entry) -/

theorem W5_v41 : W5 m ρ c (Proc.devRef .tc main_v41) = aggK (F := Ideal) (feat2 m c) (m ((c.tc : Thread nD τ).loc main_arg1)) := by
  dsimp only [W5, hostOps2]; after_results
  rw [W4_v3 m ρ c, W4_v1 m ρ c, W4_v31 m ρ c]; rfl

theorem W5_v42 : W5 m ρ c (Proc.devRef .tc main_v42) = biasRow (F := Ideal) (m ((c.tc : Thread nD τ).loc main_arg9)) := by
  dsimp only [W5, hostOps2]; after_results
  rw [W4_arg9 m ρ c]; rfl

theorem W5_v31 : W5 m ρ c (Proc.devRef .tc main_v31) = feat2 m c := by
  dsimp only [W5, hostOps2]; after_results
  exact W4_v31 m ρ c

theorem W5_v7 : W5 m ρ c (Proc.devRef .tc main_v7) = cntK (F := Ideal) (m ((c.tc : Thread nD τ).loc main_arg1)) := by
  dsimp only [W5, hostOps2]; after_results
  exact W4_v7 m ρ c

theorem W5_arg8 : W5 m ρ c (Proc.devRef .tc main_arg8) = (m ((c.tc : Thread nD τ).loc main_arg8)) := by
  dsimp only [W5, hostOps2]; after_results
  exact W4_arg8 m ρ c

theorem W5_arg10 : W5 m ρ c (Proc.devRef .tc main_arg10) = (m ((c.tc : Thread nD τ).loc main_arg10)) := by
  dsimp only [W5, hostOps2]; after_results
  exact W4_arg10 m ρ c

/-! ## After the third launch: the result -/

/-- The last boundary's contents of the result buffer: the layer applied three times. -/
theorem result_eq : W6 m ρ c (Proc.devRef .tc main_v43) = feat3 m c :=
  (W6_arr m ρ c 6).trans ((Layer2.final (V5 m ρ) c).trans
    (layerOf_congr (W5_v41 m ρ c) (W5_v7 m ρ c) (W5_v31 m ρ c) (W5_arg8 m ρ c) (W5_v42 m ρ c) (W5_arg10 m ρ c)))

/-- THE RUN, READ: every weakly fair execution terminates without a fault; the result buffer ends at the layer applied
    three times to the features, and the argument arrays as launched. -/
theorem run : θ_run defs (onTc (τ := τ) (main (F := Ideal))) ⟨m, fun _ => 0, ρ⟩ (fun r => ∀ c : Dev nD,
      r.2.mem ((c.tc : Thread nD τ).loc main_v43) = feat3 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => ⟨(h c).1.trans (result_eq m ρ c), (h c).2⟩) (run_named m ρ)

end Cert.KernelIdeal.Hand

end
-- ==== Proof.RefValue.lean ====
/-
  The reference's result as three applications of one layer.

  The reference applies, three times over, the same chain of operations to the current features `h`: the source
  indices (negative ones shifted by the number of nodes) gather rows of `h`, which are scatter-added at the target
  indices into a zero array (`aggR`); ones are scatter-added at the same targets into a zero column (`cntR`); and
  the rest of the chain (`tailR`) divides the aggregate by the count floored at 1, multiplies by the transposed first
  weight matrix, adds the bias, adds the features times the transposed second weight matrix, and rectifies. The
  composed term the reference's run ends at is literally this (`res_eq`), and `tailR` is the mean layer of its
  array arguments, entry by entry, with no condition on the entries (`tailR_eq`).
-/
import proofs.«153698_j72773925863659_1_alg».proof.Proof.Gen.ReferenceIdeal.Run
import proofs.«153698_j72773925863659_1_alg».proof.Proof.LayerSpec

noncomputable section

namespace Cert.ReferenceIdeal.Hand

open Cert.ReferenceIdeal Cert.ReferenceIdeal.Gen Cert.ReferenceIdeal.Value
open Idealize.ShloMosaic Idealize.ShloMosaic.TcCoe Idealize.SL.Sem Idealize.ShloMosaic.ValueIdx
open Cert.RowLayers Cert.MeanLayer Cert.Spec

/-- The reference's products read the left operand at (output row, contracted position) and the right one at
    (contracted position, output column). -/
theorem rdot_rows : RowsTimesCols dot_S100000x128_S128x128_S100000x128_1_0_0_1_n_n where
  rank := rfl
  size := rfl
  lhs0 := fun j q => by
    unfold DotDims.lhsIdx
    rw [dif_neg (show ¬(0 : Fin S100000x128.rank) ∈ dot_S100000x128_S128x128_S100000x128_1_0_0_1_n_n.lhsBatch by decide),
      dif_pos (show (0 : Fin S100000x128.rank) ∈ dot_S100000x128_S128x128_S100000x128_1_0_0_1_n_n.lhsNonContracting by decide)]
    rfl
  lhs1 := fun j q => dot_S100000x128_S128x128_S100000x128_1_0_0_1_n_n.lhsIdx_val_of_single rfl j q
  rhs0 := fun j q => dot_S100000x128_S128x128_S100000x128_1_0_0_1_n_n.rhsIdx_val_of_single rfl j q
  rhs1 := fun j q => by
    unfold DotDims.rhsIdx
    rw [dif_neg (show ¬(1 : Fin S128x128.rank) ∈ dot_S100000x128_S128x128_S100000x128_1_0_0_1_n_n.rhsBatch by decide),
      dif_pos (show (1 : Fin S128x128.rank) ∈ dot_S100000x128_S128x128_S100000x128_1_0_0_1_n_n.rhsNonContracting by decide)]
    rfl

section Terms
variable {F : FTy → Type} [FloatOps F]

/-- An edge list: the `[2, 1600000]` array of source and target node numbers. -/
abbrev Edges (F : FTy → Type) : Type := (⟨S2x1600000, .i32⟩ : BufTy).Contents (Elt F)
/-- A `[100000, 128]` feature array. -/
abbrev Feat (F : FTy → Type) : Type := (⟨S100000x128, .f32⟩ : BufTy).Contents (Elt F)

/-- The source node of every edge. -/
def srcR (ei : Edges F) : (⟨S1600000, .i32⟩ : BufTy).Contents (Elt F) :=
  shapeCast _ (extractStridedSlice S1x1600000 ![0, 0] ei slices_S2x1600000_S1x1600000_0_0) shapeCasts_S1x1600000_S1600000

/-- The target node of every edge. -/
def dstR (ei : Edges F) : (⟨S1600000, .i32⟩ : BufTy).Contents (Elt F) :=
  shapeCast _ (extractStridedSlice S1x1600000 ![1, 0] ei slices_S2x1600000_S1x1600000_1_0) shapeCasts_S1x1600000_S1600000

/-- The rows of `h` at the edges' sources (a negative source shifted by the number of nodes), summed at the edges' targets. -/
def aggR (h : Feat F) (ei : Edges F) : Feat F :=
  Host.scatterAdd scatter_S100000x128_S1600000x1_S1600000x128_1_0_0_1 (broadcastInDim S100000x128 ![] bcast_S_S100000x128 (constant S_ .f32 0x00000000#32)) (broadcastInDim S1600000x1 ![0] bcast_S1600000_S1600000x1_0 (dstR ei)) (Host.gather gather_S100000x128_S1600000x1_S1600000x128_1_0_n_n_0_1_1128 h (broadcastInDim S1600000x1 ![0] bcast_S1600000_S1600000x1_0 (select (cmpi .slt (srcR ei) (broadcastInDim S1600000 ![] bcast_S_S1600000 (constantI S_ 32 0#32))) (addi (srcR ei) (broadcastInDim S1600000 ![] bcast_S_S1600000 (constantI S_ 32 100000#32))) (srcR ei))))

/-- The number of edges arriving at every node, as a column. -/
def cntR (ei : Edges F) : (⟨S100000x1, .f32⟩ : BufTy).Contents (Elt F) :=
  Host.scatterAdd scatter_S100000x1_S1600000x1_S1600000x1_1_0_0_1 (broadcastInDim S100000x1 ![] bcast_S_S100000x1 (constant S_ .f32 0x00000000#32)) (broadcastInDim S1600000x1 ![0] bcast_S1600000_S1600000x1_0 (dstR ei)) (broadcastInDim S1600000x1 ![] bcast_S_S1600000x1 (constant S_ .f32 0x3F800000#32))

/-- The dense part of a layer, on the whole arrays: `max (((agg / max cnt 1) · wlᵀ + bias) + x · wrᵀ) 0`. -/
def tailR (agg : Feat F) (cnt : (⟨S100000x1, .f32⟩ : BufTy).Contents (Elt F)) (x : Feat F)
    (wl : (⟨S128x128, .f32⟩ : BufTy).Contents (Elt F)) (bl : (⟨S128, .f32⟩ : BufTy).Contents (Elt F))
    (wr : (⟨S128x128, .f32⟩ : BufTy).Contents (Elt F)) : Feat F :=
  maximumf (addf (addf (Host.dotGeneral dot_S100000x128_S128x128_S100000x128_1_0_0_1_n_n none (Host.divf agg (broadcastInDim S100000x128 ![0, 1] bcast_S100000x1_S100000x128_0_1 (maximumf cnt (broadcastInDim S100000x1 ![] bcast_S_S100000x1 (constant S_ .f32 0x3F800000#32))))) (transpose S128x128 [1, 0] wl transposes_S128x128_S128x128_1_0)) (broadcastInDim S100000x128 ![0, 1] bcast_S1x128_S100000x128_0_1 (broadcastInDim S1x128 ![1] bcast_S128_S1x128_1 bl))) (Host.dotGeneral dot_S100000x128_S128x128_S100000x128_1_0_0_1_n_n none x (transpose S128x128 [1, 0] wr transposes_S128x128_S128x128_1_0))) (broadcastInDim S100000x128 ![] bcast_S_S100000x128 (constant S_ .f32 0x00000000#32))

/-- One layer of the reference. -/
def layerR (h : Feat F) (ei : Edges F) (wl : (⟨S128x128, .f32⟩ : BufTy).Contents (Elt F))
    (bl : (⟨S128, .f32⟩ : BufTy).Contents (Elt F)) (wr : (⟨S128x128, .f32⟩ : BufTy).Contents (Elt F)) : Feat F :=
  tailR (aggR h ei) (cntR ei) h wl bl wr

end Terms

set_option maxRecDepth 8192 in
/-- The term the reference's run ends at is the layer applied three times to the features, each time with the same
    edge list and with that layer's weights and bias. -/
theorem res_eq (m : (ℓ : Loc nD τ sig) → Buf (Elt Ideal) ℓ) (c : Dev nD) :
    res_main_v84 (F := Ideal) m c
      = layerR (F := Ideal) (layerR (layerR (m ((c.tc : Thread nD τ).loc main_arg0)) (m ((c.tc : Thread nD τ).loc main_arg1))
            (m ((c.tc : Thread nD τ).loc main_arg2)) (m ((c.tc : Thread nD τ).loc main_arg3)) (m ((c.tc : Thread nD τ).loc main_arg4)))
          (m ((c.tc : Thread nD τ).loc main_arg1))
          (m ((c.tc : Thread nD τ).loc main_arg5)) (m ((c.tc : Thread nD τ).loc main_arg6)) (m ((c.tc : Thread nD τ).loc main_arg7)))
        (m ((c.tc : Thread nD τ).loc main_arg1))
        (m ((c.tc : Thread nD τ).loc main_arg8)) (m ((c.tc : Thread nD τ).loc main_arg9)) (m ((c.tc : Thread nD τ).loc main_arg10)) := by
  unfold res_main_v84 layerR tailR aggR cntR srcR dstR
  rfl

/-- The dense part of a layer is the mean layer of its arguments, entry by entry: the host divides, multiplies, adds and
    takes maxima in the order the layer is written in, so no entry has to be finite. -/
theorem tailR_eq (agg : Feat Ideal) (cnt : (⟨S100000x1, .f32⟩ : BufTy).Contents (Elt Ideal)) (x : Feat Ideal)
    (wl : (⟨S128x128, .f32⟩ : BufTy).Contents (Elt Ideal)) (bl : (⟨S128, .f32⟩ : BufTy).Contents (Elt Ideal))
    (wr : (⟨S128x128, .f32⟩ : BufTy).Contents (Elt Ideal)) :
    tailR (F := Ideal) agg cnt x wl bl wr = layerRow Facts₀.transposes_S128x128_S128x128_1_0 agg cnt x wl wr (fun j => bl (ix1 j)) := by
  unfold tailR layerRow
  exact host_meanLayer rdot_rows 0x3F800000#32 0x00000000#32 agg x cnt _ _ bl _ _ _ _ _ _ _

end Cert.ReferenceIdeal.Hand

end
-- ==== Proof.lean ====
/-
  Three stacked mean-aggregating graph layers: the tiled kernel program against the plain reference, over the extended reals.

  Both programs compute, three times over, `h ↦ max (((agg h / max cnt 1) · Wlᵀ + bl) + h · Wrᵀ) 0`, where `agg h` sums the
  rows of `h` at every node's in-neighbours and `cnt` counts them. The gathers and scatter-adds are host operations in
  both programs, printed alike, so they are carried as they are and never opened. The kernel program computes the dense
  part in a launch that walks the rows in ten blocks; a launch's output array is the layer of the whole arrays it
  found, because the layer treats every row alone (the launch modules). The reference computes the dense part with
  whole-array host operations, which read entry by entry are the same layer (the reference module). The two spell the
  layer with the same operations in the same order — the kernel's product into a zero accumulator and the host's
  `dot_general` are the same sum, its division the same quotient — so the equality needs no law of arithmetic and no
  finiteness: the precondition is never opened. What differs is only that the kernel views a bias vector as a `[1, 128]`
  row where the host broadcasts it, and that it counts the neighbours once.
-/
import proofs.«153698_j72773925863659_1_alg».proof.Defs
import proofs.«153698_j72773925863659_1_alg».proof.Proof.Gen.Kernel
import proofs.«153698_j72773925863659_1_alg».proof.Proof.Gen.Kernel.Skeleton
import proofs.«153698_j72773925863659_1_alg».proof.Proof.Gen.Kernel.Launch
import proofs.«153698_j72773925863659_1_alg».proof.Proof.Gen.Kernel.Points
import proofs.«153698_j72773925863659_1_alg».proof.Proof.Gen.Kernel.Frame
import proofs.«153698_j72773925863659_1_alg».proof.Proof.Gen.KernelIdeal
import proofs.«153698_j72773925863659_1_alg».proof.Proof.Gen.KernelIdeal.Skeleton
import proofs.«153698_j72773925863659_1_alg».proof.Proof.Gen.KernelIdeal.Launch
import proofs.«153698_j72773925863659_1_alg».proof.Proof.Gen.KernelIdeal.Points
import proofs.«153698_j72773925863659_1_alg».proof.Proof.Gen.KernelIdeal.Frame
import proofs.«153698_j72773925863659_1_alg».proof.Proof.Gen.ReferenceIdeal
import proofs.«153698_j72773925863659_1_alg».proof.Proof.Gen.ReferenceIdeal.Run
import proofs.«153698_j72773925863659_1_alg».proof.Proof.Gen.Pre_finite_inputs
import proofs.«153698_j72773925863659_1_alg».proof.Proof.KernelValue
import proofs.«153698_j72773925863659_1_alg».proof.Proof.RefValue
import Idealize.ShloMosaic.Lib.ValueLayout
import Idealize.ShloMosaic.Adequacy
import Idealize.ShloMosaic.Init

noncomputable section

namespace Cert.Proof

open Idealize.ShloMosaic Idealize.ShloMosaic.TcCoe Idealize.SL.Sem Idealize.ShloMosaic.ValueIdx
open Cert.RowLayers Cert.MeanLayer Cert.Spec

/-! ## One layer of the kernel program is one layer of the reference -/

/-- A bias vector viewed as a `[1, 128]` row has the vector as its one row. -/
theorem biasRow_row (bl : (⟨Cert.KernelIdeal.S128, .f32⟩ : BufTy).Contents (Elt Ideal)) :
    rowOf (Cert.KernelIdeal.Hand.biasRow (F := Ideal) bl) 0 = fun j => bl (ix1 j) :=
  funext fun j => shapeCast_a_1a_apply bl Cert.KernelIdeal.Facts₀.shapeCasts_S128_S1x128 0 j

/-- The two programs gather and scatter-add alike: the same operations of the same operands. -/
theorem agg_eq (h : Cert.KernelIdeal.Hand.Feat Ideal) (ei : Cert.KernelIdeal.Hand.Edges Ideal) :
    Cert.KernelIdeal.Hand.aggK (F := Ideal) h ei = Cert.ReferenceIdeal.Hand.aggR (F := Ideal) h ei := rfl

/-- The two programs count the neighbours alike. -/
theorem cnt_eq (ei : Cert.KernelIdeal.Hand.Edges Ideal) :
    Cert.KernelIdeal.Hand.cntK (F := Ideal) ei = Cert.ReferenceIdeal.Hand.cntR (F := Ideal) ei := rfl

/-- One layer of the reference is one layer of the kernel program, of the same features, edges, weights and bias. -/
theorem layer_eq (h : Cert.KernelIdeal.Hand.Feat Ideal) (ei : Cert.KernelIdeal.Hand.Edges Ideal)
    (wl : (⟨Cert.KernelIdeal.S128x128, .f32⟩ : BufTy).Contents (Elt Ideal)) (bl : (⟨Cert.KernelIdeal.S128, .f32⟩ : BufTy).Contents (Elt Ideal))
    (wr : (⟨Cert.KernelIdeal.S128x128, .f32⟩ : BufTy).Contents (Elt Ideal)) :
    Cert.ReferenceIdeal.Hand.layerR (F := Ideal) h ei wl bl wr = Cert.KernelIdeal.Hand.layerK h ei wl bl wr := by
  unfold Cert.ReferenceIdeal.Hand.layerR Cert.KernelIdeal.Hand.layerK layerOf
  rw [Cert.ReferenceIdeal.Hand.tailR_eq, biasRow_row, agg_eq, cnt_eq]

/-! ## The claims -/

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation: nothing to preserve. -/
theorem preserves : Cert.preserves_Kernel_KernelIdeal := trivial

/-- From memories agreeing on the arguments both programs end with the layer applied three times in their result. -/
theorem algebraic : Cert.algebraic_KernelIdeal_ReferenceIdeal := by
  intro m ρ m' ρ' _ hagree
  refine ⟨fun c => Cert.KernelIdeal.Hand.feat3 m c, Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7, e8, e9, e10⟩ := hagree c
  rw [Cert.ReferenceIdeal.Hand.res_eq, e0, e1, e2, e3, e4, e5, e6, e7, e8, e9, e10]
  unfold Cert.KernelIdeal.Hand.feat3 Cert.KernelIdeal.Hand.feat2 Cert.KernelIdeal.Hand.feat1
  rw [layer_eq, layer_eq, layer_eq]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
